-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x600 : Shape := ⟨3, ![64, 512, 600]⟩
abbrev S_ : Shape := ⟨0, ![]⟩

class Facts : Prop where
  bcast_S_S64x512x600 : S_.BroadcastsInDim S64x512x600 (![] : Fin 0 → Fin S64x512x600.rank)
  reducesTo_S64x512x600_S_d0_1_2 : S64x512x600.ReducesTo [0, 1, 2] S_
  h_S_ : 0 < S_.numel

variable [Facts]

def fn {F : FTy → Type} [FloatOps F] (main_arg0 : FVec F S64x512x600 .f32) (main_arg1 : FVec F S64x512x600 .f32) : IVec S_ 1 :=
  let main_v0 : FVec F S64x512x600 .f32 := Host.absf main_arg0
  let main_cst : FVec F S_ .f32 := constant S_ .f32 0x7F800000#32
  let main_v1 : FVec F S64x512x600 .f32 := broadcastInDim S64x512x600 ![] bcast_S_S64x512x600 main_cst
  let main_v2 : IVec S64x512x600 1 := cmpf .olt main_v0 main_v1
  let main_c : IVec S_ 1 := constantI S_ 1 1#1
  let main_v3 : IVec S_ 1 := (fun x v => Host.reduce IntOp.andi x v reducesTo_S64x512x600_S_d0_1_2 h_S_) main_v2 main_c
  let main_v4 : FVec F S64x512x600 .f32 := Host.absf main_arg1
  let main_cst_0 : FVec F S_ .f32 := constant S_ .f32 0x7F800000#32
  let main_v5 : FVec F S64x512x600 .f32 := broadcastInDim S64x512x600 ![] bcast_S_S64x512x600 main_cst_0
  let main_v6 : IVec S64x512x600 1 := cmpf .olt main_v4 main_v5
  let main_c_1 : IVec S_ 1 := constantI S_ 1 1#1
  let main_v7 : IVec S_ 1 := (fun x v => Host.reduce IntOp.andi x v reducesTo_S64x512x600_S_d0_1_2 h_S_) main_v6 main_c_1
  let main_v8 : IVec S_ 1 := andi main_v3 main_v7
  main_v8
-- ==== Kernel.lean ====
abbrev S64x512x600 : Shape := ⟨3, ![64, 512, 600]⟩
abbrev S64x512x2400 : Shape := ⟨3, ![64, 512, 2400]⟩
abbrev S1x512x600 : Shape := ⟨3, ![1, 512, 600]⟩
abbrev S1x512x2400 : Shape := ⟨3, ![1, 512, 2400]⟩
abbrev S512x600 : Shape := ⟨2, ![512, 600]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x2400 : Shape := ⟨2, ![512, 2400]⟩

abbrev nBuf : Space → Nat
  | .hbm => 4
  | .vmem => 8
  | .smem => 0
  | _ => 0

abbrev bufTy : (tb : Table) → Fin (tcTables nBuf tb) → BufTy
  | .hbm, ⟨0, _⟩ => ⟨S64x512x600, .f32⟩
  | .hbm, ⟨1, _⟩ => ⟨S64x512x600, .f32⟩
  | .hbm, ⟨2, _⟩ => ⟨S64x512x2400, .f32⟩
  | .hbm, ⟨3, _⟩ => ⟨S64x512x2400, .f32⟩
  | .local _ .vmem, ⟨0, _⟩ => ⟨S1x512x600, .f32⟩
  | .local _ .vmem, ⟨1, _⟩ => ⟨S1x512x600, .f32⟩
  | .local _ .vmem, ⟨2, _⟩ => ⟨S1x512x600, .f32⟩
  | .local _ .vmem, ⟨3, _⟩ => ⟨S1x512x600, .f32⟩
  | .local _ .vmem, ⟨4, _⟩ => ⟨S1x512x2400, .f32⟩
  | .local _ .vmem, ⟨5, _⟩ => ⟨S1x512x2400, .f32⟩
  | .local _ .vmem, ⟨6, _⟩ => ⟨S1x512x2400, .f32⟩
  | .local _ .vmem, ⟨7, _⟩ => ⟨S1x512x2400, .f32⟩
  | _, _ => ⟨S64x512x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x600_S1x512x600_0_0_0 : ∀ a, (![0, 0, 0] : Fin 3 → Nat) a + S1x512x600.size a ≤ S1x512x600.size a
  h_S1x512x600 : 0 < S1x512x600.numel
  shapeCasts_S1x512x600_S512x600 : S1x512x600.ShapeCasts S512x600
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  broadcasts_S1x512_S512x512 : S1x512.Broadcasts S512x512
  concatenates_S512x600_S512x600_S512x600_S512x600_S512x2400_d1 : Shape.Concatenates [S512x600, S512x600, S512x600, S512x600] S512x2400 1
  inb_S1x512x2400_S1x512x2400_0_0_0 : ∀ a, (![0, 0, 0] : Fin 3 → Nat) a + S1x512x2400.size a ≤ S1x512x2400.size a
  h_S1x512x2400 : 0 < S1x512x2400.numel
  shapeCasts_S1x512x2400_S512x2400 : S1x512x2400.ShapeCasts S512x2400
  shapeCasts_S512x2400_S1x512x2400 : S512x2400.ShapeCasts S1x512x2400
  dot_S512x600_S512x600_S512x512_1_1_0_0_n_n_wf : DotDims.WF S512x600 S512x600 S512x512 [1] [1] [0] [0] [] []
  dot_S512x512_S512x600_S512x600_1_0_0_1_n_n_wf : DotDims.WF S512x512 S512x600 S512x600 [1] [0] [0] [1] [] []
  dot_S512x512_S512x600_S512x600_0_0_1_1_n_n_wf : DotDims.WF S512x512 S512x600 S512x600 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x600.size a ≤ S64x512x600.size a
  hwx0_0 : ∀ i : grid0.Coords, EltTy.bits .f32 = 32 ∨ (Rect.block (s := S64x512x600) S1x512x600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x600.size a ≤ S64x512x600.size a
  hwx0_1 : ∀ i : grid0.Coords, EltTy.bits .f32 = 32 ∨ (Rect.block (s := S64x512x600) S1x512x600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2400.size a ≤ S64x512x2400.size a
  hwx0_2 : ∀ i : grid0.Coords, EltTy.bits .f32 = 32 ∨ (Rect.block (s := S64x512x2400) S1x512x2400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2400.size a ≤ S64x512x2400.size a
  hwx0_3 : ∀ i : grid0.Coords, EltTy.bits .f32 = 32 ∨ (Rect.block (s := S64x512x2400) S1x512x2400.size (cc0_transform_3 i) (hinb0_3 i)).WholeWords (EltTy.packing .f32)

variable [Facts₀]

def dot_S512x600_S512x600_S512x512_1_1_0_0_n_n : DotDims S512x600 S512x600 S512x512 where
  lhsContracting := [1]
  rhsContracting := [1]
  lhsNonContracting := [0]
  rhsNonContracting := [0]
  lhsBatch := []
  rhsBatch := []
  wf := dot_S512x600_S512x600_S512x512_1_1_0_0_n_n_wf
def dot_S512x512_S512x600_S512x600_1_0_0_1_n_n : DotDims S512x512 S512x600 S512x600 where
  lhsContracting := [1]
  rhsContracting := [0]
  lhsNonContracting := [0]
  rhsNonContracting := [1]
  lhsBatch := []
  rhsBatch := []
  wf := dot_S512x512_S512x600_S512x600_1_0_0_1_n_n_wf
def dot_S512x512_S512x600_S512x600_0_0_1_1_n_n : DotDims S512x512 S512x600 S512x600 where
  lhsContracting := [0]
  rhsContracting := [0]
  lhsNonContracting := [1]
  rhsNonContracting := [1]
  lhsBatch := []
  rhsBatch := []
  wf := dot_S512x512_S512x600_S512x600_0_0_1_1_n_n_wf

abbrev win0_0 : Pipeline.Window sig grid0 :=
  Pipeline.Window.ofSpec (Memref.whole main_arg0) S1x512x600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x2400.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x600 : Shape := ⟨3, ![64, 512, 600]⟩
abbrev S64x512x512 : Shape := ⟨3, ![64, 512, 512]⟩
abbrev S_ : Shape := ⟨0, ![]⟩
abbrev S64x512 : Shape := ⟨2, ![64, 512]⟩
abbrev S64x512x1 : Shape := ⟨3, ![64, 512, 1]⟩
abbrev S64x1x512 : Shape := ⟨3, ![64, 1, 512]⟩
abbrev S64x512x2400 : Shape := ⟨3, ![64, 512, 2400]⟩

abbrev nBuf : Space → Nat
  | .hbm => 39
  | .vmem => 0
  | .smem => 0
  | _ => 0

abbrev bufTy : (tb : Table) → Fin (tcTables nBuf tb) → BufTy
  | .hbm, ⟨0, _⟩ => ⟨S64x512x600, .f32⟩
  | .hbm, ⟨1, _⟩ => ⟨S64x512x600, .f32⟩
  | .hbm, ⟨2, _⟩ => ⟨S64x512x512, .f32⟩
  | .hbm, ⟨3, _⟩ => ⟨S_, .f32⟩
  | .hbm, ⟨4, _⟩ => ⟨S64x512, .f32⟩
  | .hbm, ⟨5, _⟩ => ⟨S_, .f32⟩
  | .hbm, ⟨6, _⟩ => ⟨S64x512, .f32⟩
  | .hbm, ⟨7, _⟩ => ⟨S64x512, .f32⟩
  | .hbm, ⟨8, _⟩ => ⟨S64x512x1, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512, .f32⟩
  | .hbm, ⟨14, _⟩ => ⟨S64x512x1, .f32⟩
  | .hbm, ⟨15, _⟩ => ⟨S64x512x512, .f32⟩
  | .hbm, ⟨16, _⟩ => ⟨S64x512x512, .f32⟩
  | .hbm, ⟨17, _⟩ => ⟨S_, .f32⟩
  | .hbm, ⟨18, _⟩ => ⟨S64x512, .f32⟩
  | .hbm, ⟨19, _⟩ => ⟨S_, .f32⟩
  | .hbm, ⟨20, _⟩ => ⟨S64x512, .f32⟩
  | .hbm, ⟨21, _⟩ => ⟨S64x512, .f32⟩
  | .hbm, ⟨22, _⟩ => ⟨S64x1x512, .f32⟩
  | .hbm, ⟨23, _⟩ => ⟨S64x512x512, .f32⟩
  | .hbm, ⟨24, _⟩ => ⟨S64x512x512, .f32⟩
  | .hbm, ⟨25, _⟩ => ⟨S64x512x512, .f32⟩
  | .hbm, ⟨26, _⟩ => ⟨S_, .f32⟩
  | .hbm, ⟨27, _⟩ => ⟨S64x512, .f32⟩
  | .hbm, ⟨28, _⟩ => ⟨S64x1x512, .f32⟩
  | .hbm, ⟨29, _⟩ => ⟨S64x512x512, .f32⟩
  | .hbm, ⟨30, _⟩ => ⟨S64x512x512, .f32⟩
  | .hbm, ⟨31, _⟩ => ⟨S64x512x600, .f32⟩
  | .hbm, ⟨32, _⟩ => ⟨S64x512x600, .f32⟩
  | .hbm, ⟨33, _⟩ => ⟨S64x512x600, .f32⟩
  | .hbm, ⟨34, _⟩ => ⟨S64x512x600, .f32⟩
  | .hbm, ⟨35, _⟩ => ⟨S64x512x2400, .f32⟩
  | .hbm, ⟨36, _⟩ => ⟨S64x512x600, .f32⟩
  | .hbm, ⟨37, _⟩ => ⟨S64x512x600, .f32⟩
  | .hbm, ⟨38, _⟩ => ⟨S64x512x2400, .f32⟩
  | _, _ => ⟨S64x512x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  reducesTo_S64x512x512_S64x512_d1 : S64x512x512.ReducesTo [1] S64x512
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  concatenates_S64x512x600_S64x512x600_S64x512x600_S64x512x600_S64x512x2400_d2 : Shape.Concatenates [S64x512x600, S64x512x600, S64x512x600, S64x512x600] S64x512x2400 2
  dot_S64x512x600_S64x512x600_S64x512x512_2_2_1_1_0_0_wf : DotDims.WF S64x512x600 S64x512x600 S64x512x512 [2] [2] [1] [1] [0] [0]
  dot_S64x512x512_S64x512x600_S64x512x600_2_1_1_2_0_0_wf : DotDims.WF S64x512x512 S64x512x600 S64x512x600 [2] [1] [1] [2] [0] [0]
  dot_S64x512x512_S64x512x600_S64x512x600_1_1_2_2_0_0_wf : DotDims.WF S64x512x512 S64x512x600 S64x512x600 [1] [1] [2] [2] [0] [0]

variable [Facts₀]

def dot_S64x512x600_S64x512x600_S64x512x512_2_2_1_1_0_0 : DotDims S64x512x600 S64x512x600 S64x512x512 where
  lhsContracting := [2]
  rhsContracting := [2]
  lhsNonContracting := [1]
  rhsNonContracting := [1]
  lhsBatch := [0]
  rhsBatch := [0]
  wf := dot_S64x512x600_S64x512x600_S64x512x512_2_2_1_1_0_0_wf
def dot_S64x512x512_S64x512x600_S64x512x600_2_1_1_2_0_0 : DotDims S64x512x512 S64x512x600 S64x512x600 where
  lhsContracting := [2]
  rhsContracting := [1]
  lhsNonContracting := [1]
  rhsNonContracting := [2]
  lhsBatch := [0]
  rhsBatch := [0]
  wf := dot_S64x512x512_S64x512x600_S64x512x600_2_1_1_2_0_0_wf
def dot_S64x512x512_S64x512x600_S64x512x600_1_1_2_2_0_0 : DotDims S64x512x512 S64x512x600 S64x512x600 where
  lhsContracting := [1]
  rhsContracting := [1]
  lhsNonContracting := [2]
  rhsNonContracting := [2]
  lhsBatch := [0]
  rhsBatch := [0]
  wf := dot_S64x512x512_S64x512x600_S64x512x600_1_1_2_2_0_0_wf

class Facts : Prop extends Facts₀ where

variable [Facts]
-- ==== Proof.Spec.lean ====
/-
  Co-attention between two token sequences, as plain mathematics over the extended reals.

  One batch element holds two matrices of 512 tokens by 600 features, `P` and `H`.
    • The AFFINITY of token `i` of `P` and token `j` of `H` is their inner product, `e i j = ∑_d P i d · H j d`.
    • A list of 512 scores is turned into WEIGHTS by the softmax: subtract the largest score (taken from the
      value `−∞` upward, so it is never below it), exponentiate, and divide by the sum of the exponentials.
    • Each token of `P` ATTENDS to `H`: the weights of row `i` of `e` average the rows of `H`; each token of
      `H` attends to `P` by the weights of column `j` of `e`.
    • The result lists, for each token, four blocks of 600 columns: the token itself, what it attends to, their
      difference and their product — 2400 columns.
  Nothing here refers to a program: the definitions are functions of the coordinates, and the two programs are
  each shown to compute them.
-/
import Idealize.ShloMosaic.PureOps.Ideal
import Idealize.ShloMosaic.Lib.ValueIdx

noncomputable section

namespace Cert.CoAttention

open Idealize.ShloMosaic Idealize.ShloMosaic.ValueIdx

/-- The value every running maximum starts from: the single-precision word of `−∞`. -/
abbrev floorWord : EReal := Ideal.ofBits .f32 0xFF800000#32

/-- Inner product of token `i` of `P` with token `j` of `H` over the 600 features. -/
def affinity (P H : Fin 512 → Fin 600 → EReal) (i j : Fin 512) : EReal := ∑ d : Fin 600, P i d * H j d

/-- The largest of 512 scores, taken from `−∞` upward (and once more against `−∞`, which changes nothing but is
    how both programs spell it). -/
def top (f : Fin 512 → EReal) : EReal := max floorWord ((Finset.univ : Finset (Fin 512)).fold max floorWord f)

/-- A score shifted by the largest one and exponentiated. -/
def lifted (f : Fin 512 → EReal) (k : Fin 512) : EReal := Ideal.exp (f k - top f)

/-- Softmax weight of entry `k` among 512 scores. -/
def weight (f : Fin 512 → EReal) (k : Fin 512) : EReal := Ideal.div (lifted f k) (∑ k' : Fin 512, lifted f k')

/-- What token `i` of `P` attends to: the rows of `H` averaged by the weights of row `i` of the affinities. -/
def attendedP (P H : Fin 512 → Fin 600 → EReal) (i : Fin 512) (d : Fin 600) : EReal :=
  ∑ j : Fin 512, weight (fun j' => affinity P H i j') j * H j d

/-- What token `j` of `H` attends to: the rows of `P` averaged by the weights of column `j` of the affinities. -/
def attendedH (P H : Fin 512 → Fin 600 → EReal) (j : Fin 512) (d : Fin 600) : EReal :=
  ∑ i : Fin 512, weight (fun i' => affinity P H i' j) i * P i d

/-- The four features made of a value `x` and what it attends to, `y`: `x`, `y`, `x − y`, `x · y`. -/
def feature (x y : EReal) (q : Fin 4) : EReal :=
  match q with
  | ⟨0, _⟩ => x
  | ⟨1, _⟩ => y
  | ⟨2, _⟩ => x - y
  | ⟨3, _⟩ => x * y

/-- Which of the four blocks of 600 columns holds column `c` of 2400, -/
def part (c : Fin 2400) : Fin 4 := ⟨c.val / 600, by have := c.isLt; omega⟩
/-- and where in that block. -/
def within (c : Fin 2400) : Fin 600 := ⟨c.val % 600, Nat.mod_lt _ (by decide)⟩

/-- Row `i`, column `c` of the first result of one batch element. -/
def mixedP (P H : Fin 512 → Fin 600 → EReal) (i : Fin 512) (c : Fin 2400) : EReal :=
  feature (P i (within c)) (attendedP P H i (within c)) (part c)

/-- Row `j`, column `c` of the second result of one batch element. -/
def mixedH (P H : Fin 512 → Fin 600 → EReal) (j : Fin 512) (c : Fin 2400) : EReal :=
  feature (H j (within c)) (attendedH P H j (within c)) (part c)

/-- Batch element `b` of a `[64, 512, 600]` array, as a matrix. -/
def slab (x : (⟨3, ![64, 512, 600]⟩ : Shape).Idx → EReal) (b : Fin 64) : Fin 512 → Fin 600 → EReal :=
  fun i d => x (ix3 b i d)

/-- The first result as one function of the two argument arrays, index by index. -/
def resultP (p h : (⟨3, ![64, 512, 600]⟩ : Shape).Idx → EReal) : (⟨3, ![64, 512, 2400]⟩ : Shape).Idx → EReal :=
  fun y => mixedP (slab p (y 0)) (slab h (y 0)) (y 1) (y 2)

/-- The second result as one function of the two argument arrays, index by index. -/
def resultH (p h : (⟨3, ![64, 512, 600]⟩ : Shape).Idx → EReal) : (⟨3, ![64, 512, 2400]⟩ : Shape).Idx → EReal :=
  fun y => mixedH (slab p (y 0)) (slab h (y 0)) (y 1) (y 2)

end Cert.CoAttention

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibMatrixReduce.lean ====
/-
  Reductions along one axis of a matrix of extended reals, read at an index given by coordinates.

  For an `[a, b]` array `src`:
    • the maximum along the second axis, taken from the value of a start word, is at `i` the running maximum, from
      that value, of the entries `(i, j)` over all `j`;
    • the maximum along the first axis is at `j` the running maximum of the entries `(i, j)` over all `i`;
    • the sum along the first axis, from the zero word, is at `j` the sum over `i` of the entries `(i, j)`.
  A running maximum over a finite index set does not depend on the order in which the entries are met, so it is
  written as a fold of `max` over the whole index set. (The sum along the second axis is the companion file's.)
-/
import Idealize.ShloMosaic.Lib.ValueIdx
import Idealize.ShloMosaic.PureOps.Ideal.Laws

namespace Cert.MatrixReduce

open Idealize.ShloMosaic Idealize.ShloMosaic.ValueIdx

/-- The maximum along the second axis of an `[a, b]` array, from the start word `acc`, reads at `i` the fold of `max`
    from that word's value over the entries `(i, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun j => src (ix2 i j)) := by
  refine (Ideal.multiReduction_maximumf_single src acc h hφ hacc (ix1 i)).trans ?_
  show (Finset.univ : Finset (Fin b)).fold max (Ideal.ofBits .f32 acc) (src ∘ h.lift (ix1 i)) = _
  refine congrArg (fun f => (Finset.univ : Finset (Fin b)).fold max (Ideal.ofBits .f32 acc) f) (funext fun j => ?_)
  refine congrArg src (funext fun c => Fin.ext ?_)
  match c with
  | ⟨0, _⟩ => rfl
  | ⟨1, _⟩ => rfl

/-- The maximum along the first axis of an `[a, b]` array, from the start word `acc`, reads at `j` the fold of `max`
    from that word's value over the entries `(i, j)`. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun i => src (ix2 i j)) := by
  refine (Ideal.multiReduction_maximumf_single src acc h hφ hacc (ix1 j)).trans ?_
  show (Finset.univ : Finset (Fin a)).fold max (Ideal.ofBits .f32 acc) (src ∘ h.lift (ix1 j)) = _
  refine congrArg (fun f => (Finset.univ : Finset (Fin a)).fold max (Ideal.ofBits .f32 acc) f) (funext fun i => ?_)
  refine congrArg src (funext fun c => Fin.ext ?_)
  match c with
  | ⟨0, _⟩ => rfl
  | ⟨1, _⟩ => rfl

/-- The sum along the first axis of an `[a, b]` array of extended reals, from the zero accumulator, reads at `j` the
    sum over `i` of the entries `(i, j)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = ∑ i : Fin a, src (ix2 i j)
  refine Finset.sum_congr rfl fun i _ => congrArg src (funext fun c => Fin.ext ?_)
  match c with
  | ⟨0, _⟩ => rfl
  | ⟨1, _⟩ => rfl

end Cert.MatrixReduce
-- ==== Proof.KernelOps.lean ====
/-
  The kernel body's operations on one batch element, read at coordinates, over the extended reals.

  The body holds a `[512, 600]` block of each argument and works on matrices:
    • three matrix products, each from the zero matrix: rows against rows (`A · Bᵀ`, entry `(i, j)` the inner
      product of row `i` of `A` and row `j` of `B`), a plain product (`W · X`), and a product with the left factor
      transposed (`Wᵀ · X`); each entry is a finite sum over the contracted coordinate;
    • the softmax of a `[512, 512]` matrix along its rows and along its columns: the largest entry of the row (or
      column) is spread back over it and subtracted, the differences are exponentiated, and each is divided by
      the row's (column's) sum, spread back in the same way.
  Each lemma names the entry of the result at `(i, j)` by the specification's functions of the operand's entries.
-/
import proofs.«133810_j89215060673299_1_alg».proof.Proof.Gen.KernelIdeal
import proofs.«133810_j89215060673299_1_alg».proof.Proof.Spec
import proofs.«133810_j89215060673299_1_alg».proof.Proof.LibColumnLayout
import proofs.«133810_j89215060673299_1_alg».proof.Proof.LibMatrixReduce
import Idealize.ShloMosaic.Lib.ValueLayout
import Idealize.ShloMosaic.Lib.ValueIdx
import Idealize.ShloMosaic.PureOps.Ideal.Laws

noncomputable section

namespace Cert.KernelIdeal.Attend

open Cert.KernelIdeal Cert.KernelIdeal.Gen Idealize.ShloMosaic Idealize.ShloMosaic.ValueIdx Cert.CoAttention

/-! ## The three matrix products

For each product, first where each factor is read: a kept axis of a factor carries the result index's coordinate
on it, the contracted axis carries the summation index. -/

theorem rr_lhs0 (j : S512x512.Idx) (q : dot_S512x600_S512x600_S512x512_1_1_0_0_n_n.contr.Idx) :
    (dot_S512x600_S512x600_S512x512_1_1_0_0_n_n.lhsIdx j q 0).val = (j 0).val := by
  unfold DotDims.lhsIdx
  rw [dif_neg (show ¬(0 : Fin S512x600.rank) ∈ dot_S512x600_S512x600_S512x512_1_1_0_0_n_n.lhsBatch by decide), dif_pos (show (0 : Fin S512x600.rank) ∈ dot_S512x600_S512x600_S512x512_1_1_0_0_n_n.lhsNonContracting by decide)]
  rfl
theorem rr_lhs1 (j : S512x512.Idx) (q : dot_S512x600_S512x600_S512x512_1_1_0_0_n_n.contr.Idx) :
    (dot_S512x600_S512x600_S512x512_1_1_0_0_n_n.lhsIdx j q 1).val = (q ⟨0, by decide⟩).val :=
  dot_S512x600_S512x600_S512x512_1_1_0_0_n_n.lhsIdx_val_of_single rfl j q
theorem rr_rhs0 (j : S512x512.Idx) (q : dot_S512x600_S512x600_S512x512_1_1_0_0_n_n.contr.Idx) :
    (dot_S512x600_S512x600_S512x512_1_1_0_0_n_n.rhsIdx j q 0).val = (j 1).val := by
  unfold DotDims.rhsIdx
  rw [dif_neg (show ¬(0 : Fin S512x600.rank) ∈ dot_S512x600_S512x600_S512x512_1_1_0_0_n_n.rhsBatch by decide), dif_pos (show (0 : Fin S512x600.rank) ∈ dot_S512x600_S512x600_S512x512_1_1_0_0_n_n.rhsNonContracting by decide)]
  rfl
theorem rr_rhs1 (j : S512x512.Idx) (q : dot_S512x600_S512x600_S512x512_1_1_0_0_n_n.contr.Idx) :
    (dot_S512x600_S512x600_S512x512_1_1_0_0_n_n.rhsIdx j q 1).val = (q ⟨0, by decide⟩).val :=
  dot_S512x600_S512x600_S512x512_1_1_0_0_n_n.rhsIdx_val_of_single rfl j q

/-- Rows against rows: entry `(i, j)` of the product that contracts the second axis of both factors is the inner
    product of row `i` of `W` with row `j` of `X`. -/
theorem rowsByRows_apply {φ₁ φ₂ : FTy} (W : FVec Ideal S512x600 φ₁) (X : FVec Ideal S512x600 φ₂) (i : Fin 512) (j : Fin 512) :
    matmul dot_S512x600_S512x600_S512x512_1_1_0_0_n_n none W X (constant (F := Ideal) S512x512 .f32 0x00000000#32) (ix2 i j)
      = ∑ k : Fin 600, W (ix2 i k) * X (ix2 j k) := by
  show FloatOps.matmul dot_S512x600_S512x600_S512x512_1_1_0_0_n_n none W X (constant (F := Ideal) S512x512 .f32 0x00000000#32) (ix2 i j) = _
  rw [Ideal.matmul_constant_zero_apply, ← Equiv.sum_comp (contrEquiv1 dot_S512x600_S512x600_S512x512_1_1_0_0_n_n 600 rfl rfl).symm]
  refine Finset.sum_congr rfl fun k _ => ?_
  have hk := contrEquiv1_symm_val dot_S512x600_S512x600_S512x512_1_1_0_0_n_n 600 rfl rfl k
  have el : dot_S512x600_S512x600_S512x512_1_1_0_0_n_n.lhsIdx (ix2 i j) ((contrEquiv1 dot_S512x600_S512x600_S512x512_1_1_0_0_n_n 600 rfl rfl).symm k) = ix2 i k :=
    funext fun a => Fin.ext (by
      match a with
      | ⟨0, _⟩ => exact rr_lhs0 _ _
      | ⟨1, _⟩ => exact (rr_lhs1 _ _).trans hk)
  have er : dot_S512x600_S512x600_S512x512_1_1_0_0_n_n.rhsIdx (ix2 i j) ((contrEquiv1 dot_S512x600_S512x600_S512x512_1_1_0_0_n_n 600 rfl rfl).symm k) = ix2 j k :=
    funext fun a => Fin.ext (by
      match a with
      | ⟨0, _⟩ => exact rr_rhs0 _ _
      | ⟨1, _⟩ => exact (rr_rhs1 _ _).trans hk)
  rw [el, er]

theorem pp_lhs0 (j : S512x600.Idx) (q : dot_S512x512_S512x600_S512x600_1_0_0_1_n_n.contr.Idx) :
    (dot_S512x512_S512x600_S512x600_1_0_0_1_n_n.lhsIdx j q 0).val = (j 0).val := by
  unfold DotDims.lhsIdx
  rw [dif_neg (show ¬(0 : Fin S512x512.rank) ∈ dot_S512x512_S512x600_S512x600_1_0_0_1_n_n.lhsBatch by decide), dif_pos (show (0 : Fin S512x512.rank) ∈ dot_S512x512_S512x600_S512x600_1_0_0_1_n_n.lhsNonContracting by decide)]
  rfl
theorem pp_lhs1 (j : S512x600.Idx) (q : dot_S512x512_S512x600_S512x600_1_0_0_1_n_n.contr.Idx) :
    (dot_S512x512_S512x600_S512x600_1_0_0_1_n_n.lhsIdx j q 1).val = (q ⟨0, by decide⟩).val :=
  dot_S512x512_S512x600_S512x600_1_0_0_1_n_n.lhsIdx_val_of_single rfl j q
theorem pp_rhs0 (j : S512x600.Idx) (q : dot_S512x512_S512x600_S512x600_1_0_0_1_n_n.contr.Idx) :
    (dot_S512x512_S512x600_S512x600_1_0_0_1_n_n.rhsIdx j q 0).val = (q ⟨0, by decide⟩).val :=
  dot_S512x512_S512x600_S512x600_1_0_0_1_n_n.rhsIdx_val_of_single rfl j q
theorem pp_rhs1 (j : S512x600.Idx) (q : dot_S512x512_S512x600_S512x600_1_0_0_1_n_n.contr.Idx) :
    (dot_S512x512_S512x600_S512x600_1_0_0_1_n_n.rhsIdx j q 1).val = (j 1).val := by
  unfold DotDims.rhsIdx
  rw [dif_neg (show ¬(1 : Fin S512x600.rank) ∈ dot_S512x512_S512x600_S512x600_1_0_0_1_n_n.rhsBatch by decide), dif_pos (show (1 : Fin S512x600.rank) ∈ dot_S512x512_S512x600_S512x600_1_0_0_1_n_n.rhsNonContracting by decide)]
  rfl

/-- The plain product: entry `(i, d)` of `W · X` sums, over `k`, entry `(i, k)` of `W` times entry `(k, d)` of `X`. -/
theorem product_apply {φ₁ φ₂ : FTy} (W : FVec Ideal S512x512 φ₁) (X : FVec Ideal S512x600 φ₂) (i : Fin 512) (d : Fin 600) :
    matmul dot_S512x512_S512x600_S512x600_1_0_0_1_n_n none W X (constant (F := Ideal) S512x600 .f32 0x00000000#32) (ix2 i d)
      = ∑ k : Fin 512, W (ix2 i k) * X (ix2 k d) := by
  show FloatOps.matmul dot_S512x512_S512x600_S512x600_1_0_0_1_n_n none W X (constant (F := Ideal) S512x600 .f32 0x00000000#32) (ix2 i d) = _
  rw [Ideal.matmul_constant_zero_apply, ← Equiv.sum_comp (contrEquiv1 dot_S512x512_S512x600_S512x600_1_0_0_1_n_n 512 rfl rfl).symm]
  refine Finset.sum_congr rfl fun k _ => ?_
  have hk := contrEquiv1_symm_val dot_S512x512_S512x600_S512x600_1_0_0_1_n_n 512 rfl rfl k
  have el : dot_S512x512_S512x600_S512x600_1_0_0_1_n_n.lhsIdx (ix2 i d) ((contrEquiv1 dot_S512x512_S512x600_S512x600_1_0_0_1_n_n 512 rfl rfl).symm k) = ix2 i k :=
    funext fun a => Fin.ext (by
      match a with
      | ⟨0, _⟩ => exact pp_lhs0 _ _
      | ⟨1, _⟩ => exact (pp_lhs1 _ _).trans hk)
  have er : dot_S512x512_S512x600_S512x600_1_0_0_1_n_n.rhsIdx (ix2 i d) ((contrEquiv1 dot_S512x512_S512x600_S512x600_1_0_0_1_n_n 512 rfl rfl).symm k) = ix2 k d :=
    funext fun a => Fin.ext (by
      match a with
      | ⟨0, _⟩ => exact (pp_rhs0 _ _).trans hk
      | ⟨1, _⟩ => exact pp_rhs1 _ _)
  rw [el, er]

theorem tp_lhs0 (j : S512x600.Idx) (q : dot_S512x512_S512x600_S512x600_0_0_1_1_n_n.contr.Idx) :
    (dot_S512x512_S512x600_S512x600_0_0_1_1_n_n.lhsIdx j q 0).val = (q ⟨0, by decide⟩).val :=
  dot_S512x512_S512x600_S512x600_0_0_1_1_n_n.lhsIdx_val_of_single rfl j q
theorem tp_lhs1 (j : S512x600.Idx) (q : dot_S512x512_S512x600_S512x600_0_0_1_1_n_n.contr.Idx) :
    (dot_S512x512_S512x600_S512x600_0_0_1_1_n_n.lhsIdx j q 1).val = (j 0).val := by
  unfold DotDims.lhsIdx
  rw [dif_neg (show ¬(1 : Fin S512x512.rank) ∈ dot_S512x512_S512x600_S512x600_0_0_1_1_n_n.lhsBatch by decide), dif_pos (show (1 : Fin S512x512.rank) ∈ dot_S512x512_S512x600_S512x600_0_0_1_1_n_n.lhsNonContracting by decide)]
  rfl
theorem tp_rhs0 (j : S512x600.Idx) (q : dot_S512x512_S512x600_S512x600_0_0_1_1_n_n.contr.Idx) :
    (dot_S512x512_S512x600_S512x600_0_0_1_1_n_n.rhsIdx j q 0).val = (q ⟨0, by decide⟩).val :=
  dot_S512x512_S512x600_S512x600_0_0_1_1_n_n.rhsIdx_val_of_single rfl j q
theorem tp_rhs1 (j : S512x600.Idx) (q : dot_S512x512_S512x600_S512x600_0_0_1_1_n_n.contr.Idx) :
    (dot_S512x512_S512x600_S512x600_0_0_1_1_n_n.rhsIdx j q 1).val = (j 1).val := by
  unfold DotDims.rhsIdx
  rw [dif_neg (show ¬(1 : Fin S512x600.rank) ∈ dot_S512x512_S512x600_S512x600_0_0_1_1_n_n.rhsBatch by decide), dif_pos (show (1 : Fin S512x600.rank) ∈ dot_S512x512_S512x600_S512x600_0_0_1_1_n_n.rhsNonContracting by decide)]
  rfl

/-- The product with the left factor transposed: entry `(j, d)` of `Wᵀ · X` sums, over `k`, entry `(k, j)` of `W`
    times entry `(k, d)` of `X`. -/
theorem transposedProduct_apply {φ₁ φ₂ : FTy} (W : FVec Ideal S512x512 φ₁) (X : FVec Ideal S512x600 φ₂) (j : Fin 512) (d : Fin 600) :
    matmul dot_S512x512_S512x600_S512x600_0_0_1_1_n_n none W X (constant (F := Ideal) S512x600 .f32 0x00000000#32) (ix2 j d)
      = ∑ k : Fin 512, W (ix2 k j) * X (ix2 k d) := by
  show FloatOps.matmul dot_S512x512_S512x600_S512x600_0_0_1_1_n_n none W X (constant (F := Ideal) S512x600 .f32 0x00000000#32) (ix2 j d) = _
  rw [Ideal.matmul_constant_zero_apply, ← Equiv.sum_comp (contrEquiv1 dot_S512x512_S512x600_S512x600_0_0_1_1_n_n 512 rfl rfl).symm]
  refine Finset.sum_congr rfl fun k _ => ?_
  have hk := contrEquiv1_symm_val dot_S512x512_S512x600_S512x600_0_0_1_1_n_n 512 rfl rfl k
  have el : dot_S512x512_S512x600_S512x600_0_0_1_1_n_n.lhsIdx (ix2 j d) ((contrEquiv1 dot_S512x512_S512x600_S512x600_0_0_1_1_n_n 512 rfl rfl).symm k) = ix2 k j :=
    funext fun a => Fin.ext (by
      match a with
      | ⟨0, _⟩ => exact (tp_lhs0 _ _).trans hk
      | ⟨1, _⟩ => exact tp_lhs1 _ _)
  have er : dot_S512x512_S512x600_S512x600_0_0_1_1_n_n.rhsIdx (ix2 j d) ((contrEquiv1 dot_S512x512_S512x600_S512x600_0_0_1_1_n_n 512 rfl rfl).symm k) = ix2 k d :=
    funext fun a => Fin.ext (by
      match a with
      | ⟨0, _⟩ => exact (tp_rhs0 _ _).trans hk
      | ⟨1, _⟩ => exact tp_rhs1 _ _)
  rw [el, er]

end Cert.KernelIdeal.Attend

end
-- ==== Proof.KernelSoftmax.lean ====
/-
  The two softmaxes of the body, read at coordinates.

  For a `[512, 512]` matrix `e` of affinities the body computes, along the rows: the largest entry of each row (a
  vector of 512), made a column and spread over the row; the entries minus it, exponentiated; their sum along the
  row, made a column and spread again; and the quotient. Along the columns the same with the vector made a row and
  spread down the columns. The terms are written once, for any float instance, exactly as the body spells them, so
  that the body's stored values ARE these terms; read over the extended reals, entry `(i, j)` of the row softmax is
  the softmax weight of `e i j` among row `i`, and of the column softmax the weight of `e i j` among column `j`.
-/
import proofs.«133810_j89215060673299_1_alg».proof.Proof.Gen.KernelIdeal
import proofs.«133810_j89215060673299_1_alg».proof.Proof.Spec
import proofs.«133810_j89215060673299_1_alg».proof.Proof.LibColumnLayout
import proofs.«133810_j89215060673299_1_alg».proof.Proof.LibMatrixReduce
import Idealize.ShloMosaic.Lib.ValueLayout
import Idealize.ShloMosaic.Lib.ValueIdx
import Idealize.ShloMosaic.PureOps.Ideal.Laws

noncomputable section

namespace Cert.KernelIdeal.Attend

open Cert.KernelIdeal Cert.KernelIdeal.Gen Idealize.ShloMosaic Idealize.ShloMosaic.ValueIdx Cert.CoAttention

section Terms
variable {F : FTy → Type} [FloatOps F]

/-- Each row's largest entry (never below `−∞`), spread over the row. -/
def rowTop (e : FVec F S512x512 .f32) : FVec F S512x512 .f32 :=
  broadcastTo S512x512 (shapeCast S512x1 (maximumf (broadcast S512 (Scalar.ofBits .f32 0xFF800000#32))
    (multiReduction .maximumf [1] S512 e 0xFF800000#32 reduces_S512x512_S512 (.inl rfl) rfl)) shapeCasts_S512_S512x1)
    broadcasts_S512x1_S512x512

/-- The entries shifted by their row's largest and exponentiated. -/
def rowLifted (e : FVec F S512x512 .f32) : FVec F S512x512 .f32 := exp (subf e (rowTop e))

/-- Each row's sum of those, spread over the row. -/
def rowTotal (e : FVec F S512x512 .f32) : FVec F S512x512 .f32 :=
  broadcastTo S512x512 (shapeCast S512x1
    (multiReduction .add [1] S512 (rowLifted e) 0x00000000#32 reduces_S512x512_S512 (.inl rfl) rfl) shapeCasts_S512_S512x1)
    broadcasts_S512x1_S512x512

/-- The softmax along the rows. -/
def rowSoftmax (e : FVec F S512x512 .f32) : FVec F S512x512 .f32 := divf (rowLifted e) (rowTotal e)

/-- Each column's largest entry (never below `−∞`), spread down the column. -/
def colTop (e : FVec F S512x512 .f32) : FVec F S512x512 .f32 :=
  broadcastTo S512x512 (shapeCast S1x512 (maximumf (broadcast S512 (Scalar.ofBits .f32 0xFF800000#32))
    (multiReduction .maximumf [0] S512 e 0xFF800000#32 reduces_S512x512_S512_2 (.inl rfl) rfl)) shapeCasts_S512_S1x512)
    broadcasts_S1x512_S512x512

/-- The entries shifted by their column's largest and exponentiated. -/
def colLifted (e : FVec F S512x512 .f32) : FVec F S512x512 .f32 := exp (subf e (colTop e))

/-- Each column's sum of those, spread down the column. -/
def colTotal (e : FVec F S512x512 .f32) : FVec F S512x512 .f32 :=
  broadcastTo S512x512 (shapeCast S1x512
    (multiReduction .add [0] S512 (colLifted e) 0x00000000#32 reduces_S512x512_S512_2 (.inl rfl) rfl) shapeCasts_S512_S1x512)
    broadcasts_S1x512_S512x512

/-- The softmax along the columns. -/
def colSoftmax (e : FVec F S512x512 .f32) : FVec F S512x512 .f32 := divf (colLifted e) (colTotal e)

end Terms

/-- A scalar constant over the extended reals is the value of its word. -/
theorem scalarWord (w : BitVec 32) : Scalar.ofBits (F := Ideal) .f32 w = Ideal.ofBits .f32 w := rfl

/-! ## Along the rows

The largest entry of a row is the maximum of the start value `−∞` and the running maximum of the row, itself taken from
`−∞`: the start value enters only as that one word, the same in the body and in the specification. -/

theorem rowTop_apply (e : FVec Ideal S512x512 .f32) (i j : Fin 512) :
    rowTop e (ix2 i j) = top (fun j' => e (ix2 i j')) := by
  unfold rowTop
  refine (ColumnLayout.broadcastTo_a1_ab_apply _ _ i j).trans ?_
  refine (ColumnLayout.shapeCast_a_a1_apply _ _ i 0).trans ?_
  rw [maximumf_apply, broadcast_apply, scalarWord]
  exact congrArg (fun v => max (Ideal.ofBits .f32 0xFF800000#32) v) (MatrixReduce.rowMax_apply e _ _ _ _ i)

theorem rowLifted_apply (e : FVec Ideal S512x512 .f32) (i j : Fin 512) :
    rowLifted e (ix2 i j) = lifted (fun j' => e (ix2 i j')) j := by
  show Ideal.exp (e (ix2 i j) - rowTop e (ix2 i j)) = _
  rw [rowTop_apply]
  rfl

theorem rowTotal_apply (e : FVec Ideal S512x512 .f32) (i j : Fin 512) :
    rowTotal e (ix2 i j) = ∑ k : Fin 512, lifted (fun j' => e (ix2 i j')) k := by
  unfold rowTotal
  refine (ColumnLayout.broadcastTo_a1_ab_apply _ _ i j).trans ?_
  refine (ColumnLayout.shapeCast_a_a1_apply _ _ i 0).trans ?_
  refine (ColumnLayout.rowSum_apply (rowLifted e) _ _ _ i).trans ?_
  exact Finset.sum_congr rfl fun k _ => rowLifted_apply e i k

/-- Entry `(i, j)` of the row softmax is the weight of `e i j` among row `i`. -/
theorem rowSoftmax_apply (e : FVec Ideal S512x512 .f32) (i j : Fin 512) :
    rowSoftmax e (ix2 i j) = weight (fun j' => e (ix2 i j')) j := by
  show Ideal.div (rowLifted e (ix2 i j)) (rowTotal e (ix2 i j)) = _
  rw [rowLifted_apply, rowTotal_apply]
  rfl

/-! ## Along the columns -/

theorem colTop_apply (e : FVec Ideal S512x512 .f32) (i j : Fin 512) :
    colTop e (ix2 i j) = top (fun i' => e (ix2 i' j)) := by
  unfold colTop
  refine (broadcastTo_1b_ab_apply _ _ i j).trans ?_
  refine (shapeCast_a_1a_apply _ _ 0 j).trans ?_
  rw [maximumf_apply, broadcast_apply, scalarWord]
  exact congrArg (fun v => max (Ideal.ofBits .f32 0xFF800000#32) v) (MatrixReduce.colMax_apply e _ _ _ _ j)

theorem colLifted_apply (e : FVec Ideal S512x512 .f32) (i j : Fin 512) :
    colLifted e (ix2 i j) = lifted (fun i' => e (ix2 i' j)) i := by
  show Ideal.exp (e (ix2 i j) - colTop e (ix2 i j)) = _
  rw [colTop_apply]
  rfl

theorem colTotal_apply (e : FVec Ideal S512x512 .f32) (i j : Fin 512) :
    colTotal e (ix2 i j) = ∑ k : Fin 512, lifted (fun i' => e (ix2 i' j)) k := by
  unfold colTotal
  refine (broadcastTo_1b_ab_apply _ _ i j).trans ?_
  refine (shapeCast_a_1a_apply _ _ 0 j).trans ?_
  refine (MatrixReduce.colSum_apply (colLifted e) _ _ _ j).trans ?_
  exact Finset.sum_congr rfl fun k _ => colLifted_apply e k j

/-- Entry `(i, j)` of the column softmax is the weight of `e i j` among column `j`. -/
theorem colSoftmax_apply (e : FVec Ideal S512x512 .f32) (i j : Fin 512) :
    colSoftmax e (ix2 i j) = weight (fun i' => e (ix2 i' j)) i := by
  show Ideal.div (colLifted e (ix2 i j)) (colTotal e (ix2 i j)) = _
  rw [colLifted_apply, colTotal_apply]
  rfl

end Cert.KernelIdeal.Attend

end
-- ==== Proof.KernelBlock.lean ====
/-
  The two blocks the body stores, read at an index.

  The body holds block `x` of the first argument and block `z` of the second, each `[1, 512, 600]`; as matrices
  `P i d = x (0, i, d)` and `H j d = z (0, j, d)`. It forms the affinities `e = P · Hᵀ`, the row softmax of `e`
  times `H` (what each token of `P` attends to) and the transposed column softmax of `e` times `P` (what each
  token of `H` attends to), and stores for each argument the four features side by side, 2400 columns, as a
  `[1, 512, 2400]` block. So entry `(u, i, c)` of the first stored block is the specification's `mixedP P H i c`,
  and of the second `mixedH P H i c`: column `c` falls in feature `c / 600` at position `c % 600`.
-/
import proofs.«133810_j89215060673299_1_alg».proof.Proof.Gen.KernelIdeal.Value
import proofs.«133810_j89215060673299_1_alg».proof.Proof.KernelOps
import proofs.«133810_j89215060673299_1_alg».proof.Proof.KernelSoftmax

noncomputable section

namespace Cert.KernelIdeal.Attend

open Cert.KernelIdeal Cert.KernelIdeal.Gen Idealize.ShloMosaic Idealize.ShloMosaic.ValueIdx Cert.CoAttention

/-- A `[1, 512, 600]` block as a matrix. -/
def mat (x : Vec Ideal S1x512x600 .f32) : Fin 512 → Fin 600 → EReal := fun i d => x (ix3 (0 : Fin 1) i d)

section Terms
variable {F : FTy → Type} [FloatOps F]

/-- What the tokens of the first block attend to: the row softmax of the affinities times the second block. -/
def attendedFirst (v0 v2 : Vec F S1x512x600 .f32) : FVec F S512x600 .f32 :=
  matmul dot_S512x512_S512x600_S512x600_1_0_0_1_n_n none (truncf .bf16 (rowSoftmax (k0_pay6 v0 v2)) bitsLt_bf16_f32) (k0_pay5 v2)
    (constant S512x600 .f32 0x00000000#32)

/-- The first stored block is the four features of the first block and what it attends to, side by side. -/
theorem firstStored_eq (v0 v2 : Vec F S1x512x600 .f32) :
    k0_pay8 v0 v2 = shapeCast S1x512x2400 (concatenate S512x2400 1 [⟨S512x600, k0_pay2 v0⟩, ⟨S512x600, attendedFirst v0 v2⟩,
      ⟨S512x600, subf (k0_pay2 v0) (attendedFirst v0 v2)⟩, ⟨S512x600, mulf (k0_pay2 v0) (attendedFirst v0 v2)⟩]
      concatenates_S512x600_S512x600_S512x600_S512x600_S512x2400_d1) shapeCasts_S512x2400_S1x512x2400 := rfl

/-- What the tokens of the second block attend to: the transposed column softmax of the affinities times the first block. -/
theorem attendedSecond_eq (v0 v2 : Vec F S1x512x600 .f32) :
    k0_pay7 v0 v2 = matmul dot_S512x512_S512x600_S512x600_0_0_1_1_n_n none (truncf .bf16 (colSoftmax (k0_pay6 v0 v2)) bitsLt_bf16_f32)
      (k0_pay4 v0) (constant S512x600 .f32 0x00000000#32) := rfl

end Terms

/-! ## The pieces at coordinates -/

theorem firstMatrix_apply (v0 : Vec Ideal S1x512x600 .f32) (i : Fin 512) (d : Fin 600) : k0_pay2 v0 (ix2 i d) = mat v0 i d :=
  shapeCast_1ab_ab_apply v0 _ i d

theorem secondMatrix_apply (v2 : Vec Ideal S1x512x600 .f32) (j : Fin 512) (d : Fin 600) : k0_pay3 v2 (ix2 j d) = mat v2 j d :=
  shapeCast_1ab_ab_apply v2 _ j d

/-- The affinities: a change of float format is the identity on the extended reals, so the rounded factors are the blocks. -/
theorem affinities_apply (v0 v2 : Vec Ideal S1x512x600 .f32) (i j : Fin 512) :
    k0_pay6 v0 v2 (ix2 i j) = affinity (mat v0) (mat v2) i j := by
  unfold k0_pay6
  refine (rowsByRows_apply _ _ i j).trans ?_
  refine Finset.sum_congr rfl fun d _ => ?_
  show k0_pay2 v0 (ix2 i d) * k0_pay3 v2 (ix2 j d) = mat v0 i d * mat v2 j d
  rw [firstMatrix_apply, secondMatrix_apply]

theorem attendedFirst_apply (v0 v2 : Vec Ideal S1x512x600 .f32) (i : Fin 512) (d : Fin 600) :
    attendedFirst v0 v2 (ix2 i d) = attendedP (mat v0) (mat v2) i d := by
  unfold attendedFirst
  refine (product_apply _ _ i d).trans ?_
  refine Finset.sum_congr rfl fun k _ => ?_
  show rowSoftmax (k0_pay6 v0 v2) (ix2 i k) * k0_pay3 v2 (ix2 k d) = _
  rw [rowSoftmax_apply, secondMatrix_apply]
  exact congrArg (fun f => weight f k * mat v2 k d) (funext fun j' => affinities_apply v0 v2 i j')

theorem attendedSecond_apply (v0 v2 : Vec Ideal S1x512x600 .f32) (j : Fin 512) (d : Fin 600) :
    k0_pay7 v0 v2 (ix2 j d) = attendedH (mat v0) (mat v2) j d := by
  rw [attendedSecond_eq]
  refine (transposedProduct_apply _ _ j d).trans ?_
  refine Finset.sum_congr rfl fun k _ => ?_
  show colSoftmax (k0_pay6 v0 v2) (ix2 k j) * k0_pay2 v0 (ix2 k d) = _
  rw [colSoftmax_apply, firstMatrix_apply]
  exact congrArg (fun f => weight f k * mat v0 k d) (funext fun i' => affinities_apply v0 v2 i' j)

/-! ## The first stored block -/

/-- The four matrices joined side by side in the first stored block. -/
def firstFeatures (v0 v2 : Vec Ideal S1x512x600 .f32) : Fin 4 → Vec Ideal S512x600 .f32 := fun n =>
  match n with
  | ⟨0, _⟩ => k0_pay2 v0
  | ⟨1, _⟩ => attendedFirst v0 v2
  | ⟨2, _⟩ => subf (k0_pay2 v0) (attendedFirst v0 v2)
  | ⟨3, _⟩ => mulf (k0_pay2 v0) (attendedFirst v0 v2)

theorem firstFeatures_apply (v0 v2 : Vec Ideal S1x512x600 .f32) (q : Fin 4) (i : Fin 512) (d : Fin 600) :
    firstFeatures v0 v2 q (ix2 i d) = feature (mat v0 i d) (attendedP (mat v0) (mat v2) i d) q := by
  match q with
  | ⟨0, _⟩ => exact firstMatrix_apply v0 i d
  | ⟨1, _⟩ => exact attendedFirst_apply v0 v2 i d
  | ⟨2, _⟩ =>
    show k0_pay2 v0 (ix2 i d) - attendedFirst v0 v2 (ix2 i d) = mat v0 i d - attendedP (mat v0) (mat v2) i d
    rw [firstMatrix_apply, attendedFirst_apply]
  | ⟨3, _⟩ =>
    show k0_pay2 v0 (ix2 i d) * attendedFirst v0 v2 (ix2 i d) = mat v0 i d * attendedP (mat v0) (mat v2) i d
    rw [firstMatrix_apply, attendedFirst_apply]

/-- Entry `y = (u, i, c)` of the first stored block. -/
theorem firstStored_apply (v0 v2 : Vec Ideal S1x512x600 .f32) (y : S1x512x2400.Idx) :
    k0_pay8 v0 v2 y = mixedP (mat v0) (mat v2) (y 1) (y 2) := by
  have hy0 : (y 0).val < 1 := (y 0).isLt
  have hy1 : (y 1).val < 512 := (y 1).isLt
  have hy2 : (y 2).val < 2400 := (y 2).isLt
  rw [firstStored_eq]
  refine (shapeCast_apply _ _ y (ix2 (y 1) (y 2)) (by
    rw [Shape.rowMajor_val_two, Shape.rowMajor_val_three]
    show (y 1).val * 2400 + (y 2).val = ((y 0).val * 512 + (y 1).val) * 2400 + (y 2).val
    omega)).trans ?_
  show concatenate S512x2400 1 (List.ofFn fun n : Fin 4 => (⟨S512x600, firstFeatures v0 v2 n⟩ : (s : Shape) × (s.Idx → _))) _
    (ix2 (y 1) (y 2)) = _
  refine (concatenate_ofFn_apply (t := S512x2400) (s₁ := S512x600) (1 : Fin 2) (firstFeatures v0 v2) _ rfl 600 rfl
    (ix2 (y 1) (y 2)) (part (y 2)) rfl (ix2 (y 1) (within (y 2))) rfl (fun b hb => by
      match b with
      | ⟨0, _⟩ => rfl
      | ⟨1, _⟩ => exact absurd rfl hb)).trans ?_
  exact firstFeatures_apply v0 v2 (part (y 2)) (y 1) (within (y 2))

/-! ## The second stored block -/

/-- The four matrices joined side by side in the second stored block, at coordinates. -/
theorem secondFeatures_apply (v0 v2 : Vec Ideal S1x512x600 .f32) (q : Fin 4) (i : Fin 512) (d : Fin 600) :
    Cert.KernelIdeal.Value.Cat3_0 v2 v0 q (ix2 i d) = feature (mat v2 i d) (attendedH (mat v0) (mat v2) i d) q := by
  match q with
  | ⟨0, _⟩ => exact secondMatrix_apply v2 i d
  | ⟨1, _⟩ => exact attendedSecond_apply v0 v2 i d
  | ⟨2, _⟩ =>
    show k0_pay3 v2 (ix2 i d) - k0_pay7 v0 v2 (ix2 i d) = mat v2 i d - attendedH (mat v0) (mat v2) i d
    rw [secondMatrix_apply, attendedSecond_apply]
  | ⟨3, _⟩ =>
    show k0_pay3 v2 (ix2 i d) * k0_pay7 v0 v2 (ix2 i d) = mat v2 i d * attendedH (mat v0) (mat v2) i d
    rw [secondMatrix_apply, attendedSecond_apply]

/-- Entry `y = (u, j, c)` of the second stored block: the block as one function of the loads (the four features of the
    second block and what it attends to, each read where the entry came from), at the specification's coordinates. -/
theorem secondStored_apply (v0 v2 : Vec Ideal S1x512x600 .f32) (y : S1x512x2400.Idx) :
    Cert.KernelIdeal.Value.E3 v2 v0 y = mixedH (mat v0) (mat v2) (y 1) (y 2) := by
  have hix : Cert.KernelIdeal.Value.ix3_0 y = ix2 (y 1) (within (y 2)) :=
    funext fun a => match a with | ⟨0, _⟩ => rfl | ⟨1, _⟩ => rfl
  show Cert.KernelIdeal.Value.Cat3_0 v2 v0 (part (y 2)) (Cert.KernelIdeal.Value.ix3_0 y) = _
  rw [hix]
  exact secondFeatures_apply v0 v2 (part (y 2)) (y 1) (within (y 2))

end Cert.KernelIdeal.Attend

end
-- ==== Proof.KernelArray.lean ====
/-
  From blocks to arrays: what the kernel's two result arrays hold after the run.

  The grid has one point per batch element. At point `t` each argument's block is batch element `t` of its
  array — entry `(0, i, d)` of the block is entry `(t, i, d)` of the array — and each result's block is written back to
  batch element `t` of its array. The body turns the two argument blocks into the specification's features of that
  batch element, so what point `t` writes back is batch element `t` of the specification's whole-array function;
  the 64 blocks cover every index of a result array (index `(b, i, c)` lies in the block of point `b`), so each result
  array IS that function of the argument arrays.
-/
import proofs.«133810_j89215060673299_1_alg».proof.Proof.Gen.KernelIdeal.Value
import proofs.«133810_j89215060673299_1_alg».proof.Proof.KernelBlock

noncomputable section

namespace Cert.KernelIdeal.Attend

open Cert.KernelIdeal Cert.KernelIdeal.Gen Cert.KernelIdeal.Value Idealize.ShloMosaic Idealize.ShloMosaic.TcCoe Idealize.SL.Sem
open Idealize.ShloMosaic.ValueIdx Cert.CoAttention
open Idealize.ShloMosaic.Pipeline (Dat)

variable (m : (ℓ : Loc nD τ sig) → Buf (Elt Ideal) ℓ) (ρ : Dev nD → PrngReg)

/-- The body loads and stores its whole buffers: every access starts at offset zero on each axis. -/
theorem zeroOffsets : (![0, 0, 0] : Fin 3 → Nat) = fun _ => 0 := funext fun a => by fin_cases a <;> rfl

/-- Where each window's block sits at point `t`: batch element `t`, rows and columns from zero (decided over the 64 points). -/
theorem blockAt : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The first argument's block at point `t`, as a matrix, is batch element `t` of the array. -/
theorem firstBlock_eq (c : Dev nD) (t : Fin cfg0.N) (b : Fin 64) (hb : b.val = t.val) :
    mat (iblk m c 0 t) = slab (V m c main_arg0) b := by
  obtain ⟨a0, a1, a2, -⟩ := blockAt t
  funext i d
  show V m c main_arg0 (((cfg0.win 0).blk t).view.emb (ix3 (0 : Fin 1) i d)) = V m c main_arg0 (ix3 b i d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * i.val = i.val; omega
  | ⟨2, _⟩ => show win0_0.index t (2 : Fin 3) * 600 + 1 * d.val = d.val; omega

/-- The second argument's block at point `t`, as a matrix, is batch element `t` of the array. -/
theorem secondBlock_eq (c : Dev nD) (t : Fin cfg0.N) (b : Fin 64) (hb : b.val = t.val) :
    mat (iblk m c 1 t) = slab (V m c main_arg1) b := by
  obtain ⟨-, -, -, a0, a1, a2, -⟩ := blockAt t
  funext i d
  show V m c main_arg1 (((cfg0.win 1).blk t).view.emb (ix3 (0 : Fin 1) i d)) = V m c main_arg1 (ix3 b i d)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 512 + 1 * i.val = i.val; omega
  | ⟨2, _⟩ => show win0_1.index t (2 : Fin 3) * 600 + 1 * d.val = d.val; omega

/-! ## The first result -/

/-- What point `t` writes back to the first result is block `t` of the specification's function of the argument arrays. -/
theorem firstFlushed (c : Dev nD) (t : Fin cfg0.N) :
    (dats m 0 c).flushed 2 t = ((cfg0.win 2).blk t).view.read (Elt Ideal) (resultP (V m c main_arg0) (V m c main_arg1)) := by
  rw [flushed2]
  unfold out0_2
  rw [View.canon_unit_zero zeroOffsets]
  simp only [View.ld_unit_zero (S := S1x512x600) zeroOffsets]
  obtain ⟨-, -, -, -, -, -, o0, o1, o2, -⟩ := blockAt t
  funext y
  show k0_pay8 (iblk m c 0 t) (iblk m c 1 t) y
    = resultP (V m c main_arg0) (V m c main_arg1) (((cfg0.win 2).blk t).view.emb y)
  refine (firstStored_apply (iblk m c 0 t) (iblk m c 1 t) y).trans ?_
  have hy0 : (y 0).val < 1 := (y 0).isLt
  have e0 : ((((cfg0.win 2).blk t).view.emb y) 0).val = t.val := by
    show win0_2.index t (0 : Fin 3) * 1 + 1 * (y 0).val = t.val; omega
  have e1 : (((cfg0.win 2).blk t).view.emb y) 1 = y 1 := Fin.ext (by
    show win0_2.index t (1 : Fin 3) * 512 + 1 * (y 1).val = (y 1).val; omega)
  have e2 : (((cfg0.win 2).blk t).view.emb y) 2 = y 2 := Fin.ext (by
    show win0_2.index t (2 : Fin 3) * 2400 + 1 * (y 2).val = (y 2).val; omega)
  show mixedP (mat (iblk m c 0 t)) (mat (iblk m c 1 t)) (y 1) (y 2)
    = mixedP (slab (V m c main_arg0) ((((cfg0.win 2).blk t).view.emb y) 0)) (slab (V m c main_arg1) ((((cfg0.win 2).blk t).view.emb y) 0))
        ((((cfg0.win 2).blk t).view.emb y) 1) ((((cfg0.win 2).blk t).view.emb y) 2)
  rw [e1, e2, firstBlock_eq m c t _ e0, secondBlock_eq m c t _ e0]

/-- An index of the first result array is in point `t`'s block iff each coordinate is in the block's range on its axis. -/
theorem mem_firstBlk (t : Fin cfg0.N) (i : S64x512x2400.Idx) :
    i ∈ ((cfg0.win 2).blk t).view.set ↔ ∀ a : Fin 3, win0_2.index t a * S1x512x2400.size a ≤ (i a).val
      ∧ (i a).val < win0_2.index t a * S1x512x2400.size a + S1x512x2400.size a := by
  show i ∈ ((View.whole main_v0_0).slice (win0_2.rect t)).set ↔ _
  rw [View.set_slice_whole, Rect.mem_set_unit]
  exact Iff.rfl

/-- Every index `(b, i, c)` of the first result array lies in the block of point `b`. -/
theorem firstCover (i : S64x512x2400.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 2400 := (i 2).isLt
  refine ⟨⟨(i 0).val, hi0⟩, flush0_2 _, ?_⟩
  obtain ⟨-, -, -, -, -, -, o0, o1, o2, -⟩ := blockAt ⟨(i 0).val, hi0⟩
  rw [mem_firstBlk]
  intro a
  match a with
  | ⟨0, _⟩ =>
    show win0_2.index ⟨(i 0).val, hi0⟩ (0 : Fin 3) * 1 ≤ (i 0).val ∧ (i 0).val < win0_2.index ⟨(i 0).val, hi0⟩ (0 : Fin 3) * 1 + 1
    have : (⟨(i 0).val, hi0⟩ : Fin cfg0.N).val = (i 0).val := rfl
    omega
  | ⟨1, _⟩ =>
    show win0_2.index ⟨(i 0).val, hi0⟩ (1 : Fin 3) * 512 ≤ (i 1).val ∧ (i 1).val < win0_2.index ⟨(i 0).val, hi0⟩ (1 : Fin 3) * 512 + 512
    omega
  | ⟨2, _⟩ =>
    show win0_2.index ⟨(i 0).val, hi0⟩ (2 : Fin 3) * 2400 ≤ (i 2).val ∧ (i 2).val < win0_2.index ⟨(i 0).val, hi0⟩ (2 : Fin 3) * 2400 + 2400
    omega

/-- The first result array after the run is the specification's function of the argument arrays. -/
theorem firstFinal (c : Dev nD) :
    (dats m 0 c).arrAt 2 cfg0.N = resultP (m ((c : Thread nD τ).loc main_arg0)) (m ((c : Thread nD τ).loc main_arg1)) :=
  (dats m 0 c).arrAt_eq_of_cover 2 (resultP (V m c main_arg0) (V m c main_arg1)) (fun t _ => firstFlushed m c t) firstCover

/-! ## The second result -/

/-- What point `t` writes back to the second result is block `t` of the specification's function of the argument arrays. -/
theorem secondFlushed (c : Dev nD) (t : Fin cfg0.N) :
    (dats m 0 c).flushed 3 t = ((cfg0.win 3).blk t).view.read (Elt Ideal) (resultH (V m c main_arg0) (V m c main_arg1)) := by
  rw [flushed3]
  unfold out0_3
  simp only [View.ld_unit_zero (S := S1x512x600) zeroOffsets]
  obtain ⟨-, -, -, -, -, -, -, -, -, o0, o1, o2⟩ := blockAt t
  funext y
  show (View.canon [(⟨r0_1, k0_pay1 (k0_pay3 (iblk m c 1 t)) (k0_pay7 (iblk m c 0 t) (iblk m c 1 t)) (k0_pay9 (iblk m c 0 t) (iblk m c 1 t))⟩ :
      View.Piece (Elt Ideal) S1x512x2400 .f32)] : Vec Ideal S1x512x2400 .f32) y
    = resultH (V m c main_arg0) (V m c main_arg1) (((cfg0.win 3).blk t).view.emb y)
  refine (canon3_eq (iblk m c 1 t) (iblk m c 0 t) y).trans ?_
  refine (secondStored_apply (iblk m c 0 t) (iblk m c 1 t) y).trans ?_
  have hy0 : (y 0).val < 1 := (y 0).isLt
  have e0 : ((((cfg0.win 3).blk t).view.emb y) 0).val = t.val := by
    show win0_3.index t (0 : Fin 3) * 1 + 1 * (y 0).val = t.val; omega
  have e1 : (((cfg0.win 3).blk t).view.emb y) 1 = y 1 := Fin.ext (by
    show win0_3.index t (1 : Fin 3) * 512 + 1 * (y 1).val = (y 1).val; omega)
  have e2 : (((cfg0.win 3).blk t).view.emb y) 2 = y 2 := Fin.ext (by
    show win0_3.index t (2 : Fin 3) * 2400 + 1 * (y 2).val = (y 2).val; omega)
  show mixedH (mat (iblk m c 0 t)) (mat (iblk m c 1 t)) (y 1) (y 2)
    = mixedH (slab (V m c main_arg0) ((((cfg0.win 3).blk t).view.emb y) 0)) (slab (V m c main_arg1) ((((cfg0.win 3).blk t).view.emb y) 0))
        ((((cfg0.win 3).blk t).view.emb y) 1) ((((cfg0.win 3).blk t).view.emb y) 2)
  rw [e1, e2, firstBlock_eq m c t _ e0, secondBlock_eq m c t _ e0]

/-- An index of the second result array is in point `t`'s block iff each coordinate is in the block's range on its axis. -/
theorem mem_secondBlk (t : Fin cfg0.N) (i : S64x512x2400.Idx) :
    i ∈ ((cfg0.win 3).blk t).view.set ↔ ∀ a : Fin 3, win0_3.index t a * S1x512x2400.size a ≤ (i a).val
      ∧ (i a).val < win0_3.index t a * S1x512x2400.size a + S1x512x2400.size a := by
  show i ∈ ((View.whole main_v0_1).slice (win0_3.rect t)).set ↔ _
  rw [View.set_slice_whole, Rect.mem_set_unit]
  exact Iff.rfl

/-- Every index `(b, j, c)` of the second result array lies in the block of point `b`. -/
theorem secondCover (i : S64x512x2400.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 2400 := (i 2).isLt
  refine ⟨⟨(i 0).val, hi0⟩, flush0_3 _, ?_⟩
  obtain ⟨-, -, -, -, -, -, -, -, -, o0, o1, o2⟩ := blockAt ⟨(i 0).val, hi0⟩
  rw [mem_secondBlk]
  intro a
  match a with
  | ⟨0, _⟩ =>
    show win0_3.index ⟨(i 0).val, hi0⟩ (0 : Fin 3) * 1 ≤ (i 0).val ∧ (i 0).val < win0_3.index ⟨(i 0).val, hi0⟩ (0 : Fin 3) * 1 + 1
    have : (⟨(i 0).val, hi0⟩ : Fin cfg0.N).val = (i 0).val := rfl
    omega
  | ⟨1, _⟩ =>
    show win0_3.index ⟨(i 0).val, hi0⟩ (1 : Fin 3) * 512 ≤ (i 1).val ∧ (i 1).val < win0_3.index ⟨(i 0).val, hi0⟩ (1 : Fin 3) * 512 + 512
    omega
  | ⟨2, _⟩ =>
    show win0_3.index ⟨(i 0).val, hi0⟩ (2 : Fin 3) * 2400 ≤ (i 2).val ∧ (i 2).val < win0_3.index ⟨(i 0).val, hi0⟩ (2 : Fin 3) * 2400 + 2400
    omega

/-- The second result array after the run is the specification's function of the argument arrays. -/
theorem secondFinal (c : Dev nD) :
    (dats m 0 c).arrAt 3 cfg0.N = resultH (m ((c : Thread nD τ).loc main_arg0)) (m ((c : Thread nD τ).loc main_arg1)) :=
  (dats m 0 c).arrAt_eq_of_cover 3 (resultH (V m c main_arg0) (V m c main_arg1)) (fun t _ => secondFlushed m c t) secondCover

/-! ## The run -/

/-- Every weakly fair execution of the kernel's program ends with each result array at the specification's function of
    the argument arrays, and the arguments unchanged. -/
theorem run : θ_run defs (onTc (τ := τ) (main (F := Ideal))) ⟨m, fun _ => 0, ρ⟩ fun r => ∀ c : Dev nD,
      r.2.mem ((c : Thread nD τ).loc main_v0_0) = resultP (m ((c : Thread nD τ).loc main_arg0)) (m ((c : Thread nD τ).loc main_arg1))
      ∧ r.2.mem ((c : Thread nD τ).loc main_v0_1) = resultH (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (firstFinal m c), (h c).2.1.trans (secondFinal m c), (h c).2.2⟩)
    (run_blocks m ρ)

end Cert.KernelIdeal.Attend

end
-- ==== Proof.RefTerms.lean ====
/-
  The reference program's values, named stage by stage.

  The reference works on whole `[64, 512, ·]` arrays with a leading batch axis: the batched affinities
  `e[b] = p[b] · h[b]ᵀ`; the softmax of `e` along its last axis (each row's largest entry and each row's sum are
  `[64, 512]` arrays, given a unit last axis and spread back over it) and along its middle axis (a unit middle axis
  instead); the two batched products of the softmaxes with `h` and with `p`; and the four features joined along
  the last axis. Each stage is written once, for any float instance, exactly as the program spells it, so that
  the program's results ARE these terms.
-/
import proofs.«133810_j89215060673299_1_alg».proof.Proof.Gen.ReferenceIdeal

noncomputable section

namespace Cert.ReferenceIdeal.Stages

open Cert.ReferenceIdeal Cert.ReferenceIdeal.Gen Idealize.ShloMosaic

variable {F : FTy → Type} [FloatOps F]

/-- The batched affinities. -/
def affinities (x0 x1 : FVec F S64x512x600 .f32) : FVec F S64x512x512 .f32 :=
  Host.dotGeneral dot_S64x512x600_S64x512x600_S64x512x512_2_2_1_1_0_0 none x0 x1

/-- Each row's largest entry (never below `−∞`), spread over the row. -/
def rowTop (e : FVec F S64x512x512 .f32) : FVec F S64x512x512 .f32 :=
  broadcastInDim S64x512x512 ![0, 1, 2] bcast_S64x512x1_S64x512x512_0_1_2 (broadcastInDim S64x512x1 ![0, 1] bcast_S64x512_S64x512x1_0_1
    (maximumf (broadcastInDim S64x512 ![] bcast_S_S64x512 (constant S_ .f32 0xFF800000#32))
      (Host.reduce FloatOps.maximumf e (constant S_ .f32 0xFF800000#32) reducesTo_S64x512x512_S64x512_d2 h_S_)))

/-- The entries shifted by their row's largest and exponentiated. -/
def rowLifted (e : FVec F S64x512x512 .f32) : FVec F S64x512x512 .f32 := Host.exp (subf e (rowTop e))

/-- Each row's sum of those, spread over the row. -/
def rowTotal (e : FVec F S64x512x512 .f32) : FVec F S64x512x512 .f32 :=
  broadcastInDim S64x512x512 ![0, 1, 2] bcast_S64x512x1_S64x512x512_0_1_2 (broadcastInDim S64x512x1 ![0, 1] bcast_S64x512_S64x512x1_0_1
    (Host.reduceAdd (rowLifted e) (constant S_ .f32 0x00000000#32) reducesTo_S64x512x512_S64x512_d2 h_S_))

/-- The softmax along the rows. -/
def rowSoftmax (e : FVec F S64x512x512 .f32) : FVec F S64x512x512 .f32 := Host.divf (rowLifted e) (rowTotal e)

/-- Each column's largest entry (never below `−∞`), spread down the column. -/
def colTop (e : FVec F S64x512x512 .f32) : FVec F S64x512x512 .f32 :=
  broadcastInDim S64x512x512 ![0, 1, 2] bcast_S64x1x512_S64x512x512_0_1_2 (broadcastInDim S64x1x512 ![0, 2] bcast_S64x512_S64x1x512_0_2
    (maximumf (broadcastInDim S64x512 ![] bcast_S_S64x512 (constant S_ .f32 0xFF800000#32))
      (Host.reduce FloatOps.maximumf e (constant S_ .f32 0xFF800000#32) reducesTo_S64x512x512_S64x512_d1 h_S_)))

/-- The entries shifted by their column's largest and exponentiated. -/
def colLifted (e : FVec F S64x512x512 .f32) : FVec F S64x512x512 .f32 := Host.exp (subf e (colTop e))

/-- Each column's sum of those, spread down the column. -/
def colTotal (e : FVec F S64x512x512 .f32) : FVec F S64x512x512 .f32 :=
  broadcastInDim S64x512x512 ![0, 1, 2] bcast_S64x1x512_S64x512x512_0_1_2 (broadcastInDim S64x1x512 ![0, 2] bcast_S64x512_S64x1x512_0_2
    (Host.reduceAdd (colLifted e) (constant S_ .f32 0x00000000#32) reducesTo_S64x512x512_S64x512_d1 h_S_))

/-- The softmax along the columns. -/
def colSoftmax (e : FVec F S64x512x512 .f32) : FVec F S64x512x512 .f32 := Host.divf (colLifted e) (colTotal e)

/-- What the tokens of the first argument attend to. -/
def attendedFirst (x0 x1 : FVec F S64x512x600 .f32) : FVec F S64x512x600 .f32 :=
  Host.dotGeneral dot_S64x512x512_S64x512x600_S64x512x600_2_1_1_2_0_0 none (rowSoftmax (affinities x0 x1)) x1

/-- What the tokens of the second argument attend to. -/
def attendedSecond (x0 x1 : FVec F S64x512x600 .f32) : FVec F S64x512x600 .f32 :=
  Host.dotGeneral dot_S64x512x512_S64x512x600_S64x512x600_1_1_2_2_0_0 none (colSoftmax (affinities x0 x1)) x0

/-- The first result: the four features of the first argument and what it attends to, joined along the last axis. -/
def first (x0 x1 : FVec F S64x512x600 .f32) : FVec F S64x512x2400 .f32 :=
  concatenate S64x512x2400 2 [⟨S64x512x600, x0⟩, ⟨S64x512x600, attendedFirst x0 x1⟩, ⟨S64x512x600, subf x0 (attendedFirst x0 x1)⟩,
    ⟨S64x512x600, mulf x0 (attendedFirst x0 x1)⟩] concatenates_S64x512x600_S64x512x600_S64x512x600_S64x512x600_S64x512x2400_d2

/-- The second result: the four features of the second argument and what it attends to, joined along the last axis. -/
def second (x0 x1 : FVec F S64x512x600 .f32) : FVec F S64x512x2400 .f32 :=
  concatenate S64x512x2400 2 [⟨S64x512x600, x1⟩, ⟨S64x512x600, attendedSecond x0 x1⟩, ⟨S64x512x600, subf x1 (attendedSecond x0 x1)⟩,
    ⟨S64x512x600, mulf x1 (attendedSecond x0 x1)⟩] concatenates_S64x512x600_S64x512x600_S64x512x600_S64x512x600_S64x512x2400_d2

end Cert.ReferenceIdeal.Stages

end
-- ==== Proof.RefRun.lean ====
/-
  The reference program's run: what its two results hold when it ends.

  The program is a straight line of 37 array operations. It is read in four stretches — the affinities; the softmax
  along the rows; the softmax along the columns; the two attention products with the features joined —, each
  stretch's results stated over whatever the arrays held before it (a later stretch reads an earlier one's results and the two arguments, and writes none of them). Put
  together, every weakly fair execution ends with the first result at the staged term `first` of the two argument
  arrays and the second at `second`, the arguments unchanged.
-/
import proofs.«133810_j89215060673299_1_alg».proof.Proof.Gen.ReferenceIdeal
import proofs.«133810_j89215060673299_1_alg».proof.Proof.RefTerms
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- The affinities. -/
abbrev opsAffinity : List (HloOp τ sig (Elt F)) :=
  [
    binary main_arg0 main_arg1 main_v0 ((fun l r => Host.dotGeneral dot_S64x512x600_S64x512x600_S64x512x512_2_2_1_1_0_0 none l r) : (⟨S64x512x600, .f32⟩ : BufTy).Contents (Elt F) → (⟨S64x512x600, .f32⟩ : BufTy).Contents (Elt F) → (⟨S64x512x512, .f32⟩ : BufTy).Contents (Elt F)) ]

/-- The softmax along the rows. -/
abbrev opsRows : List (HloOp τ sig (Elt F)) :=
  [
    nullary main_cst (constant S_ .f32 0xFF800000#32),
    binary main_v0 main_cst main_v1 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    nullary main_cst_0 (constant S_ .f32 0xFF800000#32),
    unary main_cst_0 main_v2 (broadcastInDim S64x512 ![] bcast_S_S64x512 : (⟨S_, .f32⟩ : BufTy).Contents (Elt F) → (⟨S64x512, .f32⟩ : BufTy).Contents (Elt F)),
    binary main_v2 main_v1 main_v3 (maximumf : (⟨S64x512, .f32⟩ : BufTy).Contents (Elt F) → (⟨S64x512, .f32⟩ : BufTy).Contents (Elt F) → (⟨S64x512, .f32⟩ : BufTy).Contents (Elt F)),
    unary main_v3 main_v4 (broadcastInDim S64x512x1 ![0, 1] bcast_S64x512_S64x512x1_0_1 : (⟨S64x512, .f32⟩ : BufTy).Contents (Elt F) → (⟨S64x512x1, .f32⟩ : BufTy).Contents (Elt F)),
    unary main_v4 main_v5 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v0 main_v5 main_v6 (subf : (⟨S64x512x512, .f32⟩ : BufTy).Contents (Elt F) → (⟨S64x512x512, .f32⟩ : BufTy).Contents (Elt F) → (⟨S64x512x512, .f32⟩ : BufTy).Contents (Elt F)),
    unary main_v6 main_v7 (Host.exp : (⟨S64x512x512, .f32⟩ : BufTy).Contents (Elt F) → (⟨S64x512x512, .f32⟩ : BufTy).Contents (Elt F)),
    nullary main_cst_1 (constant S_ .f32 0x00000000#32),
    binary main_v7 main_cst_1 main_v8 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v8 main_v9 (broadcastInDim S64x512x1 ![0, 1] bcast_S64x512_S64x512x1_0_1 : (⟨S64x512, .f32⟩ : BufTy).Contents (Elt F) → (⟨S64x512x1, .f32⟩ : BufTy).Contents (Elt F)),
    unary main_v9 main_v10 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v7 main_v10 main_v11 (Host.divf : (⟨S64x512x512, .f32⟩ : BufTy).Contents (Elt F) → (⟨S64x512x512, .f32⟩ : BufTy).Contents (Elt F) → (⟨S64x512x512, .f32⟩ : BufTy).Contents (Elt F)) ]

/-- The softmax along the columns. -/
abbrev opsCols : List (HloOp τ sig (Elt F)) :=
  [
    nullary main_cst_2 (constant S_ .f32 0xFF800000#32),
    binary main_v0 main_cst_2 main_v12 ((fun x v => Host.reduce FloatOps.maximumf x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    nullary main_cst_3 (constant S_ .f32 0xFF800000#32),
    unary main_cst_3 main_v13 (broadcastInDim S64x512 ![] bcast_S_S64x512 : (⟨S_, .f32⟩ : BufTy).Contents (Elt F) → (⟨S64x512, .f32⟩ : BufTy).Contents (Elt F)),
    binary main_v13 main_v12 main_v14 (maximumf : (⟨S64x512, .f32⟩ : BufTy).Contents (Elt F) → (⟨S64x512, .f32⟩ : BufTy).Contents (Elt F) → (⟨S64x512, .f32⟩ : BufTy).Contents (Elt F)),
    unary main_v14 main_v15 (broadcastInDim S64x1x512 ![0, 2] bcast_S64x512_S64x1x512_0_2 : (⟨S64x512, .f32⟩ : BufTy).Contents (Elt F) → (⟨S64x1x512, .f32⟩ : BufTy).Contents (Elt F)),
    unary main_v15 main_v16 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v0 main_v16 main_v17 (subf : (⟨S64x512x512, .f32⟩ : BufTy).Contents (Elt F) → (⟨S64x512x512, .f32⟩ : BufTy).Contents (Elt F) → (⟨S64x512x512, .f32⟩ : BufTy).Contents (Elt F)),
    unary main_v17 main_v18 (Host.exp : (⟨S64x512x512, .f32⟩ : BufTy).Contents (Elt F) → (⟨S64x512x512, .f32⟩ : BufTy).Contents (Elt F)),
    nullary main_cst_4 (constant S_ .f32 0x00000000#32),
    binary main_v18 main_cst_4 main_v19 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    unary main_v19 main_v20 (broadcastInDim S64x1x512 ![0, 2] bcast_S64x512_S64x1x512_0_2 : (⟨S64x512, .f32⟩ : BufTy).Contents (Elt F) → (⟨S64x1x512, .f32⟩ : BufTy).Contents (Elt F)),
    unary main_v20 main_v21 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v18 main_v21 main_v22 (Host.divf : (⟨S64x512x512, .f32⟩ : BufTy).Contents (Elt F) → (⟨S64x512x512, .f32⟩ : BufTy).Contents (Elt F) → (⟨S64x512x512, .f32⟩ : BufTy).Contents (Elt F)) ]

/-- The two attention products, and the features joined. -/
abbrev opsJoin : List (HloOp τ sig (Elt F)) :=
  [
    binary main_v11 main_arg1 main_v23 ((fun l r => Host.dotGeneral dot_S64x512x512_S64x512x600_S64x512x600_2_1_1_2_0_0 none l r) : (⟨S64x512x512, .f32⟩ : BufTy).Contents (Elt F) → (⟨S64x512x600, .f32⟩ : BufTy).Contents (Elt F) → (⟨S64x512x600, .f32⟩ : BufTy).Contents (Elt F)),
    binary main_v22 main_arg0 main_v24 ((fun l r => Host.dotGeneral dot_S64x512x512_S64x512x600_S64x512x600_1_1_2_2_0_0 none l r) : (⟨S64x512x512, .f32⟩ : BufTy).Contents (Elt F) → (⟨S64x512x600, .f32⟩ : BufTy).Contents (Elt F) → (⟨S64x512x600, .f32⟩ : BufTy).Contents (Elt F)),
    binary main_arg0 main_v23 main_v25 (subf : (⟨S64x512x600, .f32⟩ : BufTy).Contents (Elt F) → (⟨S64x512x600, .f32⟩ : BufTy).Contents (Elt F) → (⟨S64x512x600, .f32⟩ : BufTy).Contents (Elt F)),
    binary main_arg0 main_v23 main_v26 (mulf : (⟨S64x512x600, .f32⟩ : BufTy).Contents (Elt F) → (⟨S64x512x600, .f32⟩ : BufTy).Contents (Elt F) → (⟨S64x512x600, .f32⟩ : BufTy).Contents (Elt F)),
    nary ![main_arg0, main_v23, main_v25, main_v26] main_v27 (fun u => concatenate S64x512x2400 2 [⟨S64x512x600, u 0⟩, ⟨S64x512x600, u 1⟩, ⟨S64x512x600, u 2⟩, ⟨S64x512x600, u 3⟩] concatenates_S64x512x600_S64x512x600_S64x512x600_S64x512x600_S64x512x2400_d2),
    binary main_arg1 main_v24 main_v28 (subf : (⟨S64x512x600, .f32⟩ : BufTy).Contents (Elt F) → (⟨S64x512x600, .f32⟩ : BufTy).Contents (Elt F) → (⟨S64x512x600, .f32⟩ : BufTy).Contents (Elt F)),
    binary main_arg1 main_v24 main_v29 (mulf : (⟨S64x512x600, .f32⟩ : BufTy).Contents (Elt F) → (⟨S64x512x600, .f32⟩ : BufTy).Contents (Elt F) → (⟨S64x512x600, .f32⟩ : BufTy).Contents (Elt F)),
    nary ![main_arg1, main_v24, main_v28, main_v29] main_v30 (fun u => concatenate S64x512x2400 2 [⟨S64x512x600, u 0⟩, ⟨S64x512x600, u 1⟩, ⟨S64x512x600, u 2⟩, ⟨S64x512x600, u 3⟩] concatenates_S64x512x600_S64x512x600_S64x512x600_S64x512x600_S64x512x2400_d2) ]

/-- The whole program's operations, in order. -/
abbrev ops : List (HloOp τ sig (Elt F)) := opsAffinity ++ (opsRows ++ (opsCols ++ opsJoin))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., nary_bufs_sub .., binary_bufs_sub .., binary_bufs_sub .., nary_bufs_sub ..⟩

/-! ## Each stretch, over whatever the arrays held before it -/

variable (W : Valuation τ sig (Elt F))

theorem affinity_v0 : after opsAffinity W (Proc.devRef .tc main_v0)
    = affinities (W (Proc.devRef .tc main_arg0)) (W (Proc.devRef .tc main_arg1)) := by after_results_simp <;> rfl
theorem affinity_arg0 : after opsAffinity W (Proc.devRef .tc main_arg0) = W (Proc.devRef .tc main_arg0) := by after_results_simp <;> rfl
theorem affinity_arg1 : after opsAffinity W (Proc.devRef .tc main_arg1) = W (Proc.devRef .tc main_arg1) := by after_results_simp <;> rfl

theorem rows_v11 : after opsRows W (Proc.devRef .tc main_v11) = rowSoftmax (W (Proc.devRef .tc main_v0)) := by after_results_simp <;> rfl
theorem rows_v0 : after opsRows W (Proc.devRef .tc main_v0) = W (Proc.devRef .tc main_v0) := by after_results_simp <;> rfl
theorem rows_arg0 : after opsRows W (Proc.devRef .tc main_arg0) = W (Proc.devRef .tc main_arg0) := by after_results_simp <;> rfl
theorem rows_arg1 : after opsRows W (Proc.devRef .tc main_arg1) = W (Proc.devRef .tc main_arg1) := by after_results_simp <;> rfl

theorem cols_v22 : after opsCols W (Proc.devRef .tc main_v22) = colSoftmax (W (Proc.devRef .tc main_v0)) := by after_results_simp <;> rfl
theorem cols_v11 : after opsCols W (Proc.devRef .tc main_v11) = W (Proc.devRef .tc main_v11) := by after_results_simp <;> rfl
theorem cols_arg0 : after opsCols W (Proc.devRef .tc main_arg0) = W (Proc.devRef .tc main_arg0) := by after_results_simp <;> rfl
theorem cols_arg1 : after opsCols W (Proc.devRef .tc main_arg1) = W (Proc.devRef .tc main_arg1) := by after_results_simp <;> rfl

theorem join_v27 : after opsJoin W (Proc.devRef .tc main_v27)
    = concatenate S64x512x2400 2 [⟨S64x512x600, W (Proc.devRef .tc main_arg0)⟩,
        ⟨S64x512x600, Host.dotGeneral dot_S64x512x512_S64x512x600_S64x512x600_2_1_1_2_0_0 none (W (Proc.devRef .tc main_v11)) (W (Proc.devRef .tc main_arg1))⟩,
        ⟨S64x512x600, subf (W (Proc.devRef .tc main_arg0)) (Host.dotGeneral dot_S64x512x512_S64x512x600_S64x512x600_2_1_1_2_0_0 none (W (Proc.devRef .tc main_v11)) (W (Proc.devRef .tc main_arg1)))⟩,
        ⟨S64x512x600, mulf (W (Proc.devRef .tc main_arg0)) (Host.dotGeneral dot_S64x512x512_S64x512x600_S64x512x600_2_1_1_2_0_0 none (W (Proc.devRef .tc main_v11)) (W (Proc.devRef .tc main_arg1)))⟩]
        concatenates_S64x512x600_S64x512x600_S64x512x600_S64x512x600_S64x512x2400_d2 := by after_results_simp <;> rfl
theorem join_v30 : after opsJoin W (Proc.devRef .tc main_v30)
    = concatenate S64x512x2400 2 [⟨S64x512x600, W (Proc.devRef .tc main_arg1)⟩,
        ⟨S64x512x600, Host.dotGeneral dot_S64x512x512_S64x512x600_S64x512x600_1_1_2_2_0_0 none (W (Proc.devRef .tc main_v22)) (W (Proc.devRef .tc main_arg0))⟩,
        ⟨S64x512x600, subf (W (Proc.devRef .tc main_arg1)) (Host.dotGeneral dot_S64x512x512_S64x512x600_S64x512x600_1_1_2_2_0_0 none (W (Proc.devRef .tc main_v22)) (W (Proc.devRef .tc main_arg0)))⟩,
        ⟨S64x512x600, mulf (W (Proc.devRef .tc main_arg1)) (Host.dotGeneral dot_S64x512x512_S64x512x600_S64x512x600_1_1_2_2_0_0 none (W (Proc.devRef .tc main_v22)) (W (Proc.devRef .tc main_arg0)))⟩]
        concatenates_S64x512x600_S64x512x600_S64x512x600_S64x512x600_S64x512x2400_d2 := by after_results_simp <;> rfl
theorem join_arg0 : after opsJoin W (Proc.devRef .tc main_arg0) = W (Proc.devRef .tc main_arg0) := by after_results_simp <;> rfl
theorem join_arg1 : after opsJoin W (Proc.devRef .tc main_arg1) = W (Proc.devRef .tc main_arg1) := by after_results_simp <;> rfl

/-! ## The whole line -/

theorem whole_v27 : after ops W (Proc.devRef .tc main_v27) = first (W (Proc.devRef .tc main_arg0)) (W (Proc.devRef .tc main_arg1)) := by
  rw [after_append, after_append, after_append, join_v27, cols_arg0, cols_v11, cols_arg1, rows_arg0, rows_v11, rows_arg1,
    affinity_v0, affinity_arg0, affinity_arg1]
  rfl

theorem whole_v30 : after ops W (Proc.devRef .tc main_v30) = second (W (Proc.devRef .tc main_arg0)) (W (Proc.devRef .tc main_arg1)) := by
  rw [after_append, after_append, after_append, join_v30, cols_arg0, cols_v22, cols_arg1, rows_arg0, rows_v0, rows_arg1,
    affinity_v0, affinity_arg0, affinity_arg1]
  rfl

theorem whole_arg0 : after ops W (Proc.devRef .tc main_arg0) = W (Proc.devRef .tc main_arg0) := by
  rw [after_append, after_append, after_append, join_arg0, cols_arg0, rows_arg0, affinity_arg0]

theorem whole_arg1 : after ops W (Proc.devRef .tc main_arg1) = W (Proc.devRef .tc main_arg1) := by
  rw [after_append, after_append, after_append, join_arg1, cols_arg1, rows_arg1, affinity_arg1]

/-- On every device, from any memory with zero counters: every weakly fair execution of the reference program
    terminates with each result at its staged term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = first (m ((c.tc : Thread nD τ).loc main_arg0)) (m ((c.tc : Thread nD τ).loc main_arg1))
      ∧ r.2.mem ((c.tc : Thread nD τ).loc main_v30) = second (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v27).trans (whole_v27 (launchContents m c)),
      (h c main_v30).trans (whole_v30 (launchContents m c)),
      (h c main_arg0).trans (whole_arg0 (launchContents m c)),
      (h c main_arg1).trans (whole_arg1 (launchContents m c))⟩)
    (run_seq scopedRefs_eq scopedSems_eq defs main (fun _ => ops) main_eq (fun _ => ops_sub) m ρ)

end Cert.ReferenceIdeal.Stages

end
-- ==== Proof.RefLayout.lean ====
/-
  The reference's re-laying and reducing operations, read at coordinates.

  A `[64, 512]` array of per-row values is given a unit last axis and spread over it: entry `(b, i, j)` of the result is
  entry `(b, i)`. Given a unit middle axis instead and spread over that, entry `(b, i, j)` is entry `(b, j)`. A scalar
  spread to `[64, 512]` is the scalar everywhere. The maximum (from a start value) and the sum (from zero) of a
  `[64, 512, 512]` array along its last axis are at `(b, i)` the running maximum, or the sum, over `j` of the entries
  `(b, i, j)`; along its middle axis at `(b, j)` over `i`.
-/
import proofs.«133810_j89215060673299_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.ValueIdx

/-! ## Spreading -/

/-- A scalar spread to `[64, 512]` reads the scalar everywhere. -/
theorem splat_apply {α : Type} (x : S_.Idx → α) (b : Fin 64) (i : Fin 512) :
    broadcastInDim S64x512 ![] bcast_S_S64x512 x (ix2 b i) = x ix0 :=
  broadcastInDim_apply _ bcast_S_S64x512 x (ix2 b i) ix0 (fun a => a.elim0)

/-- Per-row values spread over the last axis: entry `(b, i, j)` is entry `(b, i)`. -/
theorem spreadOverLast_apply {α : Type} (v : S64x512.Idx → α) (b : Fin 64) (i j : Fin 512) :
    broadcastInDim S64x512x512 ![0, 1, 2] bcast_S64x512x1_S64x512x512_0_1_2
      (broadcastInDim S64x512x1 ![0, 1] bcast_S64x512_S64x512x1_0_1 v) (ix3 b i j) = v (ix2 b i) := by
  refine (broadcastInDim_apply _ bcast_S64x512x1_S64x512x512_0_1_2 _ (ix3 b i j) (ix3 b i (0 : Fin 1)) (fun a => match a with
    | ⟨0, _⟩ => by show b.val = if (64 : Nat) = 1 then 0 else b.val; rw [if_neg (by decide)]
    | ⟨1, _⟩ => by show i.val = if (512 : Nat) = 1 then 0 else i.val; rw [if_neg (by decide)]
    | ⟨2, _⟩ => by show 0 = if (1 : Nat) = 1 then 0 else j.val; rw [if_pos rfl])).trans ?_
  exact broadcastInDim_apply _ bcast_S64x512_S64x512x1_0_1 v (ix3 b i (0 : Fin 1)) (ix2 b i) (fun a => match a with
    | ⟨0, _⟩ => by show b.val = if (64 : Nat) = 1 then 0 else b.val; rw [if_neg (by decide)]
    | ⟨1, _⟩ => by show i.val = if (512 : Nat) = 1 then 0 else i.val; rw [if_neg (by decide)])

/-- Per-column values spread over the middle axis: entry `(b, i, j)` is entry `(b, j)`. -/
theorem spreadOverMiddle_apply {α : Type} (v : S64x512.Idx → α) (b : Fin 64) (i j : Fin 512) :
    broadcastInDim S64x512x512 ![0, 1, 2] bcast_S64x1x512_S64x512x512_0_1_2
      (broadcastInDim S64x1x512 ![0, 2] bcast_S64x512_S64x1x512_0_2 v) (ix3 b i j) = v (ix2 b j) := by
  refine (broadcastInDim_apply _ bcast_S64x1x512_S64x512x512_0_1_2 _ (ix3 b i j) (ix3 b (0 : Fin 1) j) (fun a => match a with
    | ⟨0, _⟩ => by show b.val = if (64 : Nat) = 1 then 0 else b.val; rw [if_neg (by decide)]
    | ⟨1, _⟩ => by show 0 = if (1 : Nat) = 1 then 0 else i.val; rw [if_pos rfl]
    | ⟨2, _⟩ => by show j.val = if (512 : Nat) = 1 then 0 else j.val; rw [if_neg (by decide)])).trans ?_
  exact broadcastInDim_apply _ bcast_S64x512_S64x1x512_0_2 v (ix3 b (0 : Fin 1) j) (ix2 b j) (fun a => match a with
    | ⟨0, _⟩ => by show b.val = if (64 : Nat) = 1 then 0 else b.val; rw [if_neg (by decide)]
    | ⟨1, _⟩ => by show j.val = if (512 : Nat) = 1 then 0 else j.val; rw [if_neg (by decide)])

/-! ## Reducing -/

/-- The maximum along the last axis, from the value of the start word. -/
theorem maxOverLast_apply (e : FVec Ideal S64x512x512 .f32) (w : BitVec 32) (b : Fin 64) (i : Fin 512) :
    Host.reduce FloatOps.maximumf e (constant (F := Ideal) S_ .f32 w) reducesTo_S64x512x512_S64x512_d2 h_S_ (ix2 b i)
      = (Finset.univ : Finset (Fin 512)).fold max (Ideal.ofBits .f32 w) (fun j => e (ix3 b i j)) := by
  refine (Host.reduce_eq_fold_single FloatOps.maximumf e (constant (F := Ideal) S_ .f32 w) reducesTo_S64x512x512_S64x512_d2
    (by decide : S64x512x512.Reduces [2] S64x512) h_S_ (ix2 b i)).trans ?_
  show (Finset.univ : Finset (Fin 512)).fold max (Ideal.ofBits .f32 w)
    (e ∘ (by decide : S64x512x512.Reduces [2] S64x512).lift (ix2 b i)) = _
  refine congrArg (fun f => (Finset.univ : Finset (Fin 512)).fold max (Ideal.ofBits .f32 w) f) (funext fun j => ?_)
  refine congrArg e (funext fun c => Fin.ext ?_)
  match c with
  | ⟨0, _⟩ => rfl
  | ⟨1, _⟩ => rfl
  | ⟨2, _⟩ => rfl

/-- The maximum along the middle axis, from the value of the start word. -/
theorem maxOverMiddle_apply (e : FVec Ideal S64x512x512 .f32) (w : BitVec 32) (b : Fin 64) (j : Fin 512) :
    Host.reduce FloatOps.maximumf e (constant (F := Ideal) S_ .f32 w) reducesTo_S64x512x512_S64x512_d1 h_S_ (ix2 b j)
      = (Finset.univ : Finset (Fin 512)).fold max (Ideal.ofBits .f32 w) (fun i => e (ix3 b i j)) := by
  refine (Host.reduce_eq_fold_single FloatOps.maximumf e (constant (F := Ideal) S_ .f32 w) reducesTo_S64x512x512_S64x512_d1
    (by decide : S64x512x512.Reduces [1] S64x512) h_S_ (ix2 b j)).trans ?_
  show (Finset.univ : Finset (Fin 512)).fold max (Ideal.ofBits .f32 w)
    (e ∘ (by decide : S64x512x512.Reduces [1] S64x512).lift (ix2 b j)) = _
  refine congrArg (fun f => (Finset.univ : Finset (Fin 512)).fold max (Ideal.ofBits .f32 w) f) (funext fun i => ?_)
  refine congrArg e (funext fun c => Fin.ext ?_)
  match c with
  | ⟨0, _⟩ => rfl
  | ⟨1, _⟩ => rfl
  | ⟨2, _⟩ => rfl

/-- The sum along the last axis, from zero. -/
theorem sumOverLast_apply (x : FVec Ideal S64x512x512 .f32) (b : Fin 64) (i : Fin 512) :
    Host.reduceAdd x (constant (F := Ideal) S_ .f32 0x00000000#32) reducesTo_S64x512x512_S64x512_d2 h_S_ (ix2 b i)
      = ∑ j : Fin 512, x (ix3 b i j) := by
  simp only [Host.reduceAdd, Ideal.hostReduceAdd_def]
  rw [Ideal.hostReduceAdd_single reducesTo_S64x512x512_S64x512_d2 (by decide)]
  show Ideal.ofBits .f32 0x00000000#32 + _ = _
  rw [Ideal.ofBits_zero_f32, zero_add]
  exact Finset.sum_congr rfl fun k _ => congrArg x (funext fun a => Fin.ext (by
    match a with | ⟨0, _⟩ => rfl | ⟨1, _⟩ => rfl | ⟨2, _⟩ => rfl))

/-- The sum along the middle axis, from zero. -/
theorem sumOverMiddle_apply (x : FVec Ideal S64x512x512 .f32) (b : Fin 64) (j : Fin 512) :
    Host.reduceAdd x (constant (F := Ideal) S_ .f32 0x00000000#32) reducesTo_S64x512x512_S64x512_d1 h_S_ (ix2 b j)
      = ∑ i : Fin 512, x (ix3 b i j) := by
  simp only [Host.reduceAdd, Ideal.hostReduceAdd_def]
  rw [Ideal.hostReduceAdd_single reducesTo_S64x512x512_S64x512_d1 (by decide)]
  show Ideal.ofBits .f32 0x00000000#32 + _ = _
  rw [Ideal.ofBits_zero_f32, zero_add]
  exact Finset.sum_congr rfl fun k _ => congrArg x (funext fun a => Fin.ext (by
    match a with | ⟨0, _⟩ => rfl | ⟨1, _⟩ => rfl | ⟨2, _⟩ => rfl))

end Cert.ReferenceIdeal.Stages

end
-- ==== Proof.RefProducts.lean ====
/-
  The reference's three batched matrix products, read at coordinates over the extended reals.

  Each keeps the batch axis and contracts one axis of each factor, so an entry of the result is a finite sum over the
  contracted coordinate of products of one entry of each factor of the same batch element: rows against rows
  (`W[b] · X[b]ᵀ`), the plain product (`W[b] · X[b]`), and the product with the left factor transposed
  (`W[b]ᵀ · X[b]`). For each, first where each factor is read: the batch axis and a kept axis carry the result index's
  coordinates, the contracted axis carries the summation index.
-/
import proofs.«133810_j89215060673299_1_alg».proof.Proof.Gen.ReferenceIdeal
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.ValueIdx

theorem aff_lhs0 (j : S64x512x512.Idx) (q : dot_S64x512x600_S64x512x600_S64x512x512_2_2_1_1_0_0.contr.Idx) :
    (dot_S64x512x600_S64x512x600_S64x512x512_2_2_1_1_0_0.lhsIdx j q 0).val = (j 0).val := by
  unfold DotDims.lhsIdx
  rw [dif_pos (show (0 : Fin S64x512x600.rank) ∈ dot_S64x512x600_S64x512x600_S64x512x512_2_2_1_1_0_0.lhsBatch by decide)]
  rfl
theorem aff_lhs1 (j : S64x512x512.Idx) (q : dot_S64x512x600_S64x512x600_S64x512x512_2_2_1_1_0_0.contr.Idx) :
    (dot_S64x512x600_S64x512x600_S64x512x512_2_2_1_1_0_0.lhsIdx j q 1).val = (j 1).val := by
  unfold DotDims.lhsIdx
  rw [dif_neg (show ¬(1 : Fin S64x512x600.rank) ∈ dot_S64x512x600_S64x512x600_S64x512x512_2_2_1_1_0_0.lhsBatch by decide), dif_pos (show (1 : Fin S64x512x600.rank) ∈ dot_S64x512x600_S64x512x600_S64x512x512_2_2_1_1_0_0.lhsNonContracting by decide)]
  rfl
theorem aff_lhs2 (j : S64x512x512.Idx) (q : dot_S64x512x600_S64x512x600_S64x512x512_2_2_1_1_0_0.contr.Idx) :
    (dot_S64x512x600_S64x512x600_S64x512x512_2_2_1_1_0_0.lhsIdx j q 2).val = (q ⟨0, by decide⟩).val :=
  dot_S64x512x600_S64x512x600_S64x512x512_2_2_1_1_0_0.lhsIdx_val_of_single rfl j q
theorem aff_rhs0 (j : S64x512x512.Idx) (q : dot_S64x512x600_S64x512x600_S64x512x512_2_2_1_1_0_0.contr.Idx) :
    (dot_S64x512x600_S64x512x600_S64x512x512_2_2_1_1_0_0.rhsIdx j q 0).val = (j 0).val := by
  unfold DotDims.rhsIdx
  rw [dif_pos (show (0 : Fin S64x512x600.rank) ∈ dot_S64x512x600_S64x512x600_S64x512x512_2_2_1_1_0_0.rhsBatch by decide)]
  rfl
theorem aff_rhs1 (j : S64x512x512.Idx) (q : dot_S64x512x600_S64x512x600_S64x512x512_2_2_1_1_0_0.contr.Idx) :
    (dot_S64x512x600_S64x512x600_S64x512x512_2_2_1_1_0_0.rhsIdx j q 1).val = (j 2).val := by
  unfold DotDims.rhsIdx
  rw [dif_neg (show ¬(1 : Fin S64x512x600.rank) ∈ dot_S64x512x600_S64x512x600_S64x512x512_2_2_1_1_0_0.rhsBatch by decide), dif_pos (show (1 : Fin S64x512x600.rank) ∈ dot_S64x512x600_S64x512x600_S64x512x512_2_2_1_1_0_0.rhsNonContracting by decide)]
  rfl
theorem aff_rhs2 (j : S64x512x512.Idx) (q : dot_S64x512x600_S64x512x600_S64x512x512_2_2_1_1_0_0.contr.Idx) :
    (dot_S64x512x600_S64x512x600_S64x512x512_2_2_1_1_0_0.rhsIdx j q 2).val = (q ⟨0, by decide⟩).val :=
  dot_S64x512x600_S64x512x600_S64x512x512_2_2_1_1_0_0.rhsIdx_val_of_single rfl j q

/-- Batched rows against rows: entry `(b, i, j)` is the inner product of row `i` of `W[b]` with row `j` of `X[b]`. -/
theorem rowsByRows_apply (W : FVec Ideal S64x512x600 .f32) (X : FVec Ideal S64x512x600 .f32) (b : Fin 64) (i j : Fin 512) :
    Host.dotGeneral dot_S64x512x600_S64x512x600_S64x512x512_2_2_1_1_0_0 none W X (ix3 b i j)
      = ∑ k : Fin 600, W (ix3 b i k) * X (ix3 b j k) := by
  simp only [Host.dotGeneral]
  rw [Ideal.dotGeneral_apply, ← Equiv.sum_comp (contrEquiv1 dot_S64x512x600_S64x512x600_S64x512x512_2_2_1_1_0_0 600 rfl rfl).symm]
  refine Finset.sum_congr rfl fun k _ => ?_
  have hk := contrEquiv1_symm_val dot_S64x512x600_S64x512x600_S64x512x512_2_2_1_1_0_0 600 rfl rfl k
  have el : dot_S64x512x600_S64x512x600_S64x512x512_2_2_1_1_0_0.lhsIdx (ix3 b i j) ((contrEquiv1 dot_S64x512x600_S64x512x600_S64x512x512_2_2_1_1_0_0 600 rfl rfl).symm k) = ix3 b i k :=
    funext fun a => Fin.ext (by
      match a with
      | ⟨0, _⟩ => exact aff_lhs0 _ _
      | ⟨1, _⟩ => exact aff_lhs1 _ _
      | ⟨2, _⟩ => exact (aff_lhs2 _ _).trans hk)
  have er : dot_S64x512x600_S64x512x600_S64x512x512_2_2_1_1_0_0.rhsIdx (ix3 b i j) ((contrEquiv1 dot_S64x512x600_S64x512x600_S64x512x512_2_2_1_1_0_0 600 rfl rfl).symm k) = ix3 b j k :=
    funext fun a => Fin.ext (by
      match a with
      | ⟨0, _⟩ => exact aff_rhs0 _ _
      | ⟨1, _⟩ => exact aff_rhs1 _ _
      | ⟨2, _⟩ => exact (aff_rhs2 _ _).trans hk)
  rw [el, er]

theorem att1_lhs0 (j : S64x512x600.Idx) (q : dot_S64x512x512_S64x512x600_S64x512x600_2_1_1_2_0_0.contr.Idx) :
    (dot_S64x512x512_S64x512x600_S64x512x600_2_1_1_2_0_0.lhsIdx j q 0).val = (j 0).val := by
  unfold DotDims.lhsIdx
  rw [dif_pos (show (0 : Fin S64x512x512.rank) ∈ dot_S64x512x512_S64x512x600_S64x512x600_2_1_1_2_0_0.lhsBatch by decide)]
  rfl
theorem att1_lhs1 (j : S64x512x600.Idx) (q : dot_S64x512x512_S64x512x600_S64x512x600_2_1_1_2_0_0.contr.Idx) :
    (dot_S64x512x512_S64x512x600_S64x512x600_2_1_1_2_0_0.lhsIdx j q 1).val = (j 1).val := by
  unfold DotDims.lhsIdx
  rw [dif_neg (show ¬(1 : Fin S64x512x512.rank) ∈ dot_S64x512x512_S64x512x600_S64x512x600_2_1_1_2_0_0.lhsBatch by decide), dif_pos (show (1 : Fin S64x512x512.rank) ∈ dot_S64x512x512_S64x512x600_S64x512x600_2_1_1_2_0_0.lhsNonContracting by decide)]
  rfl
theorem att1_lhs2 (j : S64x512x600.Idx) (q : dot_S64x512x512_S64x512x600_S64x512x600_2_1_1_2_0_0.contr.Idx) :
    (dot_S64x512x512_S64x512x600_S64x512x600_2_1_1_2_0_0.lhsIdx j q 2).val = (q ⟨0, by decide⟩).val :=
  dot_S64x512x512_S64x512x600_S64x512x600_2_1_1_2_0_0.lhsIdx_val_of_single rfl j q
theorem att1_rhs0 (j : S64x512x600.Idx) (q : dot_S64x512x512_S64x512x600_S64x512x600_2_1_1_2_0_0.contr.Idx) :
    (dot_S64x512x512_S64x512x600_S64x512x600_2_1_1_2_0_0.rhsIdx j q 0).val = (j 0).val := by
  unfold DotDims.rhsIdx
  rw [dif_pos (show (0 : Fin S64x512x600.rank) ∈ dot_S64x512x512_S64x512x600_S64x512x600_2_1_1_2_0_0.rhsBatch by decide)]
  rfl
theorem att1_rhs1 (j : S64x512x600.Idx) (q : dot_S64x512x512_S64x512x600_S64x512x600_2_1_1_2_0_0.contr.Idx) :
    (dot_S64x512x512_S64x512x600_S64x512x600_2_1_1_2_0_0.rhsIdx j q 1).val = (q ⟨0, by decide⟩).val :=
  dot_S64x512x512_S64x512x600_S64x512x600_2_1_1_2_0_0.rhsIdx_val_of_single rfl j q
theorem att1_rhs2 (j : S64x512x600.Idx) (q : dot_S64x512x512_S64x512x600_S64x512x600_2_1_1_2_0_0.contr.Idx) :
    (dot_S64x512x512_S64x512x600_S64x512x600_2_1_1_2_0_0.rhsIdx j q 2).val = (j 2).val := by
  unfold DotDims.rhsIdx
  rw [dif_neg (show ¬(2 : Fin S64x512x600.rank) ∈ dot_S64x512x512_S64x512x600_S64x512x600_2_1_1_2_0_0.rhsBatch by decide), dif_pos (show (2 : Fin S64x512x600.rank) ∈ dot_S64x512x512_S64x512x600_S64x512x600_2_1_1_2_0_0.rhsNonContracting by decide)]
  rfl

/-- The batched plain product: entry `(b, i, d)` sums, over `k`, `W[b](i, k) · X[b](k, d)`. -/
theorem product_apply (W : FVec Ideal S64x512x512 .f32) (X : FVec Ideal S64x512x600 .f32) (b : Fin 64) (i : Fin 512) (d : Fin 600) :
    Host.dotGeneral dot_S64x512x512_S64x512x600_S64x512x600_2_1_1_2_0_0 none W X (ix3 b i d)
      = ∑ k : Fin 512, W (ix3 b i k) * X (ix3 b k d) := by
  simp only [Host.dotGeneral]
  rw [Ideal.dotGeneral_apply, ← Equiv.sum_comp (contrEquiv1 dot_S64x512x512_S64x512x600_S64x512x600_2_1_1_2_0_0 512 rfl rfl).symm]
  refine Finset.sum_congr rfl fun k _ => ?_
  have hk := contrEquiv1_symm_val dot_S64x512x512_S64x512x600_S64x512x600_2_1_1_2_0_0 512 rfl rfl k
  have el : dot_S64x512x512_S64x512x600_S64x512x600_2_1_1_2_0_0.lhsIdx (ix3 b i d) ((contrEquiv1 dot_S64x512x512_S64x512x600_S64x512x600_2_1_1_2_0_0 512 rfl rfl).symm k) = ix3 b i k :=
    funext fun a => Fin.ext (by
      match a with
      | ⟨0, _⟩ => exact att1_lhs0 _ _
      | ⟨1, _⟩ => exact att1_lhs1 _ _
      | ⟨2, _⟩ => exact (att1_lhs2 _ _).trans hk)
  have er : dot_S64x512x512_S64x512x600_S64x512x600_2_1_1_2_0_0.rhsIdx (ix3 b i d) ((contrEquiv1 dot_S64x512x512_S64x512x600_S64x512x600_2_1_1_2_0_0 512 rfl rfl).symm k) = ix3 b k d :=
    funext fun a => Fin.ext (by
      match a with
      | ⟨0, _⟩ => exact att1_rhs0 _ _
      | ⟨1, _⟩ => exact (att1_rhs1 _ _).trans hk
      | ⟨2, _⟩ => exact att1_rhs2 _ _)
  rw [el, er]

theorem att2_lhs0 (j : S64x512x600.Idx) (q : dot_S64x512x512_S64x512x600_S64x512x600_1_1_2_2_0_0.contr.Idx) :
    (dot_S64x512x512_S64x512x600_S64x512x600_1_1_2_2_0_0.lhsIdx j q 0).val = (j 0).val := by
  unfold DotDims.lhsIdx
  rw [dif_pos (show (0 : Fin S64x512x512.rank) ∈ dot_S64x512x512_S64x512x600_S64x512x600_1_1_2_2_0_0.lhsBatch by decide)]
  rfl
theorem att2_lhs1 (j : S64x512x600.Idx) (q : dot_S64x512x512_S64x512x600_S64x512x600_1_1_2_2_0_0.contr.Idx) :
    (dot_S64x512x512_S64x512x600_S64x512x600_1_1_2_2_0_0.lhsIdx j q 1).val = (q ⟨0, by decide⟩).val :=
  dot_S64x512x512_S64x512x600_S64x512x600_1_1_2_2_0_0.lhsIdx_val_of_single rfl j q
theorem att2_lhs2 (j : S64x512x600.Idx) (q : dot_S64x512x512_S64x512x600_S64x512x600_1_1_2_2_0_0.contr.Idx) :
    (dot_S64x512x512_S64x512x600_S64x512x600_1_1_2_2_0_0.lhsIdx j q 2).val = (j 1).val := by
  unfold DotDims.lhsIdx
  rw [dif_neg (show ¬(2 : Fin S64x512x512.rank) ∈ dot_S64x512x512_S64x512x600_S64x512x600_1_1_2_2_0_0.lhsBatch by decide), dif_pos (show (2 : Fin S64x512x512.rank) ∈ dot_S64x512x512_S64x512x600_S64x512x600_1_1_2_2_0_0.lhsNonContracting by decide)]
  rfl
theorem att2_rhs0 (j : S64x512x600.Idx) (q : dot_S64x512x512_S64x512x600_S64x512x600_1_1_2_2_0_0.contr.Idx) :
    (dot_S64x512x512_S64x512x600_S64x512x600_1_1_2_2_0_0.rhsIdx j q 0).val = (j 0).val := by
  unfold DotDims.rhsIdx
  rw [dif_pos (show (0 : Fin S64x512x600.rank) ∈ dot_S64x512x512_S64x512x600_S64x512x600_1_1_2_2_0_0.rhsBatch by decide)]
  rfl
theorem att2_rhs1 (j : S64x512x600.Idx) (q : dot_S64x512x512_S64x512x600_S64x512x600_1_1_2_2_0_0.contr.Idx) :
    (dot_S64x512x512_S64x512x600_S64x512x600_1_1_2_2_0_0.rhsIdx j q 1).val = (q ⟨0, by decide⟩).val :=
  dot_S64x512x512_S64x512x600_S64x512x600_1_1_2_2_0_0.rhsIdx_val_of_single rfl j q
theorem att2_rhs2 (j : S64x512x600.Idx) (q : dot_S64x512x512_S64x512x600_S64x512x600_1_1_2_2_0_0.contr.Idx) :
    (dot_S64x512x512_S64x512x600_S64x512x600_1_1_2_2_0_0.rhsIdx j q 2).val = (j 2).val := by
  unfold DotDims.rhsIdx
  rw [dif_neg (show ¬(2 : Fin S64x512x600.rank) ∈ dot_S64x512x512_S64x512x600_S64x512x600_1_1_2_2_0_0.rhsBatch by decide), dif_pos (show (2 : Fin S64x512x600.rank) ∈ dot_S64x512x512_S64x512x600_S64x512x600_1_1_2_2_0_0.rhsNonContracting by decide)]
  rfl

/-- The batched product with the left factor transposed: entry `(b, j, d)` sums, over `k`, `W[b](k, j) · X[b](k, d)`. -/
theorem transposedProduct_apply (W : FVec Ideal S64x512x512 .f32) (X : FVec Ideal S64x512x600 .f32) (b : Fin 64) (j : Fin 512) (d : Fin 600) :
    Host.dotGeneral dot_S64x512x512_S64x512x600_S64x512x600_1_1_2_2_0_0 none W X (ix3 b j d)
      = ∑ k : Fin 512, W (ix3 b k j) * X (ix3 b k d) := by
  simp only [Host.dotGeneral]
  rw [Ideal.dotGeneral_apply, ← Equiv.sum_comp (contrEquiv1 dot_S64x512x512_S64x512x600_S64x512x600_1_1_2_2_0_0 512 rfl rfl).symm]
  refine Finset.sum_congr rfl fun k _ => ?_
  have hk := contrEquiv1_symm_val dot_S64x512x512_S64x512x600_S64x512x600_1_1_2_2_0_0 512 rfl rfl k
  have el : dot_S64x512x512_S64x512x600_S64x512x600_1_1_2_2_0_0.lhsIdx (ix3 b j d) ((contrEquiv1 dot_S64x512x512_S64x512x600_S64x512x600_1_1_2_2_0_0 512 rfl rfl).symm k) = ix3 b k j :=
    funext fun a => Fin.ext (by
      match a with
      | ⟨0, _⟩ => exact att2_lhs0 _ _
      | ⟨1, _⟩ => exact (att2_lhs1 _ _).trans hk
      | ⟨2, _⟩ => exact att2_lhs2 _ _)
  have er : dot_S64x512x512_S64x512x600_S64x512x600_1_1_2_2_0_0.rhsIdx (ix3 b j d) ((contrEquiv1 dot_S64x512x512_S64x512x600_S64x512x600_1_1_2_2_0_0 512 rfl rfl).symm k) = ix3 b k d :=
    funext fun a => Fin.ext (by
      match a with
      | ⟨0, _⟩ => exact att2_rhs0 _ _
      | ⟨1, _⟩ => exact (att2_rhs1 _ _).trans hk
      | ⟨2, _⟩ => exact att2_rhs2 _ _)
  rw [el, er]

end Cert.ReferenceIdeal.Stages

end
-- ==== Proof.RefSoftmax.lean ====
/-
  The reference's affinities and its two softmaxes, read at coordinates.

  Entry `(b, i, j)` of the batched affinities is the affinity of tokens `i` and `j` of batch element `b`; the softmax
  along the rows has there the softmax weight of that entry among row `i` of batch element `b`, the softmax along the
  columns its weight among column `j`.
-/
import proofs.«133810_j89215060673299_1_alg».proof.Proof.Spec
import proofs.«133810_j89215060673299_1_alg».proof.Proof.RefTerms
import proofs.«133810_j89215060673299_1_alg».proof.Proof.RefLayout
import proofs.«133810_j89215060673299_1_alg».proof.Proof.RefProducts

noncomputable section

namespace Cert.ReferenceIdeal.Stages

open Cert.ReferenceIdeal Cert.ReferenceIdeal.Gen Idealize.ShloMosaic Idealize.ShloMosaic.ValueIdx Cert.CoAttention

theorem affinities_apply (x0 x1 : FVec Ideal S64x512x600 .f32) (b : Fin 64) (i j : Fin 512) :
    affinities x0 x1 (ix3 b i j) = affinity (slab x0 b) (slab x1 b) i j :=
  rowsByRows_apply x0 x1 b i j

/-! ## Along the rows -/

theorem rowTop_apply (e : FVec Ideal S64x512x512 .f32) (b : Fin 64) (i j : Fin 512) :
    rowTop e (ix3 b i j) = top (fun j' => e (ix3 b i j')) := by
  unfold rowTop
  refine (spreadOverLast_apply _ b i j).trans ?_
  -- the spread scalar is the start word `−∞`; the reduced array at `(b, i)` is the running maximum of row `i` from it
  rw [maximumf_apply, splat_apply, constant_apply, maxOverLast_apply]
  rfl

theorem rowLifted_apply (e : FVec Ideal S64x512x512 .f32) (b : Fin 64) (i j : Fin 512) :
    rowLifted e (ix3 b i j) = lifted (fun j' => e (ix3 b i j')) j := by
  show Ideal.exp (e (ix3 b i j) - rowTop e (ix3 b i j)) = _
  rw [rowTop_apply]
  rfl

theorem rowTotal_apply (e : FVec Ideal S64x512x512 .f32) (b : Fin 64) (i j : Fin 512) :
    rowTotal e (ix3 b i j) = ∑ k : Fin 512, lifted (fun j' => e (ix3 b i j')) k := by
  unfold rowTotal
  refine (spreadOverLast_apply _ b i j).trans ?_
  refine (sumOverLast_apply (rowLifted e) b i).trans ?_
  exact Finset.sum_congr rfl fun k _ => rowLifted_apply e b i k

theorem rowSoftmax_apply (e : FVec Ideal S64x512x512 .f32) (b : Fin 64) (i j : Fin 512) :
    rowSoftmax e (ix3 b i j) = weight (fun j' => e (ix3 b i j')) j := by
  show Ideal.div (rowLifted e (ix3 b i j)) (rowTotal e (ix3 b i j)) = _
  rw [rowLifted_apply, rowTotal_apply]
  rfl

/-! ## Along the columns -/

theorem colTop_apply (e : FVec Ideal S64x512x512 .f32) (b : Fin 64) (i j : Fin 512) :
    colTop e (ix3 b i j) = top (fun i' => e (ix3 b i' j)) := by
  unfold colTop
  refine (spreadOverMiddle_apply _ b i j).trans ?_
  rw [maximumf_apply, splat_apply, constant_apply, maxOverMiddle_apply]
  rfl

theorem colLifted_apply (e : FVec Ideal S64x512x512 .f32) (b : Fin 64) (i j : Fin 512) :
    colLifted e (ix3 b i j) = lifted (fun i' => e (ix3 b i' j)) i := by
  show Ideal.exp (e (ix3 b i j) - colTop e (ix3 b i j)) = _
  rw [colTop_apply]
  rfl

theorem colTotal_apply (e : FVec Ideal S64x512x512 .f32) (b : Fin 64) (i j : Fin 512) :
    colTotal e (ix3 b i j) = ∑ k : Fin 512, lifted (fun i' => e (ix3 b i' j)) k := by
  unfold colTotal
  refine (spreadOverMiddle_apply _ b i j).trans ?_
  refine (sumOverMiddle_apply (colLifted e) b j).trans ?_
  exact Finset.sum_congr rfl fun k _ => colLifted_apply e b k j

theorem colSoftmax_apply (e : FVec Ideal S64x512x512 .f32) (b : Fin 64) (i j : Fin 512) :
    colSoftmax e (ix3 b i j) = weight (fun i' => e (ix3 b i' j)) i := by
  show Ideal.div (colLifted e (ix3 b i j)) (colTotal e (ix3 b i j)) = _
  rw [colLifted_apply, colTotal_apply]
  rfl

end Cert.ReferenceIdeal.Stages

end
-- ==== Proof.RefResult.lean ====
/-
  The reference's two results are the specification's functions of the argument arrays.

  With the affinities and the softmaxes read at coordinates, the two batched attention products are the
  specification's attended values, and an entry `(b, i, c)` of a result falls in feature `c / 600` at position
  `c % 600` of the four arrays joined along the last axis.
-/
import proofs.«133810_j89215060673299_1_alg».proof.Proof.RefSoftmax

noncomputable section

namespace Cert.ReferenceIdeal.Stages

open Cert.ReferenceIdeal Cert.ReferenceIdeal.Gen Idealize.ShloMosaic Idealize.ShloMosaic.ValueIdx Cert.CoAttention

/-! ## The attended values -/

theorem attendedFirst_apply (x0 x1 : FVec Ideal S64x512x600 .f32) (b : Fin 64) (i : Fin 512) (d : Fin 600) :
    attendedFirst x0 x1 (ix3 b i d) = attendedP (slab x0 b) (slab x1 b) i d := by
  unfold attendedFirst
  refine (product_apply _ _ b i d).trans ?_
  refine Finset.sum_congr rfl fun k _ => ?_
  rw [rowSoftmax_apply]
  exact congrArg (fun f => weight f k * x1 (ix3 b k d)) (funext fun j' => affinities_apply x0 x1 b i j')

theorem attendedSecond_apply (x0 x1 : FVec Ideal S64x512x600 .f32) (b : Fin 64) (j : Fin 512) (d : Fin 600) :
    attendedSecond x0 x1 (ix3 b j d) = attendedH (slab x0 b) (slab x1 b) j d := by
  unfold attendedSecond
  refine (transposedProduct_apply _ _ b j d).trans ?_
  refine Finset.sum_congr rfl fun k _ => ?_
  rw [colSoftmax_apply]
  exact congrArg (fun f => weight f k * x0 (ix3 b k d)) (funext fun i' => affinities_apply x0 x1 b i' j)

/-! ## The two results -/

/-- The four arrays joined along the last axis in the first result. -/
def firstFeatures (x0 x1 : FVec Ideal S64x512x600 .f32) : Fin 4 → FVec Ideal S64x512x600 .f32 := fun n =>
  match n with
  | ⟨0, _⟩ => x0
  | ⟨1, _⟩ => attendedFirst x0 x1
  | ⟨2, _⟩ => subf x0 (attendedFirst x0 x1)
  | ⟨3, _⟩ => mulf x0 (attendedFirst x0 x1)

theorem firstFeatures_apply (x0 x1 : FVec Ideal S64x512x600 .f32) (q : Fin 4) (b : Fin 64) (i : Fin 512) (d : Fin 600) :
    firstFeatures x0 x1 q (ix3 b i d) = feature (slab x0 b i d) (attendedP (slab x0 b) (slab x1 b) i d) q := by
  match q with
  | ⟨0, _⟩ => rfl
  | ⟨1, _⟩ => exact attendedFirst_apply x0 x1 b i d
  | ⟨2, _⟩ =>
    show x0 (ix3 b i d) - attendedFirst x0 x1 (ix3 b i d) = slab x0 b i d - attendedP (slab x0 b) (slab x1 b) i d
    rw [attendedFirst_apply]
    rfl
  | ⟨3, _⟩ =>
    show x0 (ix3 b i d) * attendedFirst x0 x1 (ix3 b i d) = slab x0 b i d * attendedP (slab x0 b) (slab x1 b) i d
    rw [attendedFirst_apply]
    rfl

/-- The four arrays joined along the last axis in the second result. -/
def secondFeatures (x0 x1 : FVec Ideal S64x512x600 .f32) : Fin 4 → FVec Ideal S64x512x600 .f32 := fun n =>
  match n with
  | ⟨0, _⟩ => x1
  | ⟨1, _⟩ => attendedSecond x0 x1
  | ⟨2, _⟩ => subf x1 (attendedSecond x0 x1)
  | ⟨3, _⟩ => mulf x1 (attendedSecond x0 x1)

theorem secondFeatures_apply (x0 x1 : FVec Ideal S64x512x600 .f32) (q : Fin 4) (b : Fin 64) (j : Fin 512) (d : Fin 600) :
    secondFeatures x0 x1 q (ix3 b j d) = feature (slab x1 b j d) (attendedH (slab x0 b) (slab x1 b) j d) q := by
  match q with
  | ⟨0, _⟩ => rfl
  | ⟨1, _⟩ => exact attendedSecond_apply x0 x1 b j d
  | ⟨2, _⟩ =>
    show x1 (ix3 b j d) - attendedSecond x0 x1 (ix3 b j d) = slab x1 b j d - attendedH (slab x0 b) (slab x1 b) j d
    rw [attendedSecond_apply]
    rfl
  | ⟨3, _⟩ =>
    show x1 (ix3 b j d) * attendedSecond x0 x1 (ix3 b j d) = slab x1 b j d * attendedH (slab x0 b) (slab x1 b) j d
    rw [attendedSecond_apply]
    rfl

/-- The reference's first result is the specification's. -/
theorem first_eq (x0 x1 : FVec Ideal S64x512x600 .f32) : first x0 x1 = resultP x0 x1 := by
  funext y
  unfold first
  show concatenate S64x512x2400 2 (List.ofFn fun n : Fin 4 => (⟨S64x512x600, firstFeatures x0 x1 n⟩ : (s : Shape) × (s.Idx → _))) _ y = _
  refine (concatenate_ofFn_apply (t := S64x512x2400) (s₁ := S64x512x600) (2 : Fin 3) (firstFeatures x0 x1) _ rfl 600 rfl
    y (part (y 2)) rfl (ix3 (y 0) (y 1) (within (y 2))) rfl (fun b hb => by
      match b with
      | ⟨0, _⟩ => rfl
      | ⟨1, _⟩ => rfl
      | ⟨2, _⟩ => exact absurd rfl hb)).trans ?_
  exact firstFeatures_apply x0 x1 (part (y 2)) (y 0) (y 1) (within (y 2))

/-- The reference's second result is the specification's. -/
theorem second_eq (x0 x1 : FVec Ideal S64x512x600 .f32) : second x0 x1 = resultH x0 x1 := by
  funext y
  unfold second
  show concatenate S64x512x2400 2 (List.ofFn fun n : Fin 4 => (⟨S64x512x600, secondFeatures x0 x1 n⟩ : (s : Shape) × (s.Idx → _))) _ y = _
  refine (concatenate_ofFn_apply (t := S64x512x2400) (s₁ := S64x512x600) (2 : Fin 3) (secondFeatures x0 x1) _ rfl 600 rfl
    y (part (y 2)) rfl (ix3 (y 0) (y 1) (within (y 2))) rfl (fun b hb => by
      match b with
      | ⟨0, _⟩ => rfl
      | ⟨1, _⟩ => rfl
      | ⟨2, _⟩ => exact absurd rfl hb)).trans ?_
  exact secondFeatures_apply x0 x1 (part (y 2)) (y 0) (y 1) (within (y 2))

end Cert.ReferenceIdeal.Stages

end
-- ==== Proof.lean ====
/-
  Co-attention between two batches of token sequences: the kernel against its reference, over the extended reals.

  Both programs take `p, h : [64, 512, 600]` and, for each batch element, form the affinities `e = p · hᵀ`, the softmax of
  `e` along its rows and along its columns, what each token of `p` attends to in `h` and each token of `h` in `p`, and return
  for each argument the four features (the token, what it attends to, their difference, their product) side by side,
  `[64, 512, 2400]`. The kernel does this one batch element per grid point on `[512, ·]` matrices, rounding the factors of
  its three matrix products to a shorter float format first; the reference does it on whole arrays with a batch axis.
  Over the extended reals a change of float format is the identity, a matrix product from the zero matrix is the plain
  finite sum, and a running maximum or a sum along an axis does not depend on how the array is tiled; so both programs
  compute, index by index, the same function of the arguments (Proof/Spec.lean: `resultP`, `resultH`), operation for
  operation — no law of arithmetic beyond that is used, and the finiteness of the inputs is not needed.

  The kernel's two result arrays are that function (Proof/KernelArray.lean, over the generated blockwise value leg:
  what each grid point writes back, and the blocks covering the arrays); the reference's run ends at its staged terms
  (Proof/RefRun.lean), which are the same function (Proof/RefResult.lean). The frames of the two kernel programs are the
  generated ones; the reference's frame is its run with the results dropped; the idealization rewrote no operation.
-/
import proofs.«133810_j89215060673299_1_alg».proof.Defs
import proofs.«133810_j89215060673299_1_alg».proof.Proof.Gen.Kernel
import proofs.«133810_j89215060673299_1_alg».proof.Proof.Gen.Kernel.Skeleton
import proofs.«133810_j89215060673299_1_alg».proof.Proof.Gen.Kernel.Launch
import proofs.«133810_j89215060673299_1_alg».proof.Proof.Gen.Kernel.Points
import proofs.«133810_j89215060673299_1_alg».proof.Proof.Gen.Kernel.Frame
import proofs.«133810_j89215060673299_1_alg».proof.Proof.Gen.KernelIdeal
import proofs.«133810_j89215060673299_1_alg».proof.Proof.Gen.KernelIdeal.Skeleton
import proofs.«133810_j89215060673299_1_alg».proof.Proof.Gen.KernelIdeal.Launch
import proofs.«133810_j89215060673299_1_alg».proof.Proof.Gen.KernelIdeal.Points
import proofs.«133810_j89215060673299_1_alg».proof.Proof.Gen.KernelIdeal.Frame
import proofs.«133810_j89215060673299_1_alg».proof.Proof.Gen.KernelIdeal.Value
import proofs.«133810_j89215060673299_1_alg».proof.Proof.Gen.ReferenceIdeal
import proofs.«133810_j89215060673299_1_alg».proof.Proof.Gen.Pre_finite_inputs
import proofs.«133810_j89215060673299_1_alg».proof.Proof.KernelArray
import proofs.«133810_j89215060673299_1_alg».proof.Proof.RefRun
import proofs.«133810_j89215060673299_1_alg».proof.Proof.RefResult
import Idealize.ShloMosaic.Adequacy
import Idealize.ShloMosaic.Init

noncomputable section

namespace Cert.Proof

open Idealize.ShloMosaic Idealize.ShloMosaic.TcCoe Idealize.SL.Sem Cert.CoAttention

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what the results hold dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- The idealization rewrote no operation: nothing to preserve. -/
theorem preserves : Cert.preserves_Kernel_KernelIdeal := trivial

/-- From memories agreeing on the arguments, both idealized programs end with each result at the specification's
    function of the arguments: the kernel's arrays are it block by block, the reference's staged terms are it index by
    index. -/
theorem algebraic : Cert.algebraic_KernelIdeal_ReferenceIdeal := by
  intro m ρ m' ρ' _ hagree
  refine ⟨fun c => resultP (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => resultH (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Attend.run m ρ, ?_⟩
  refine (θ_run Cert.ReferenceIdeal.defs _ _).mono (fun _ h c => ⟨?_, ?_, (h c).2.2⟩)
    (Cert.ReferenceIdeal.Stages.run (F := Ideal) m' ρ')
  · rw [(h c).1, Cert.ReferenceIdeal.Stages.first_eq, (hagree c).1, (hagree c).2]
  · rw [(h c).2.1, Cert.ReferenceIdeal.Stages.second_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
